-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S256x1024 : Shape := ⟨2, ![256, 1024]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 9
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1024x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .f32⟩
  | .local _ .vmem, ⟨18, _⟩ => ⟨S1024x1024, .f32⟩
  | .local _ .vmem, ⟨19, _⟩ => ⟨S1024x1, .f32⟩
  | .local _ .vmem, ⟨20, _⟩ => ⟨S1024x1, .f32⟩
  | .local _ .vmem, ⟨21, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_25 : BitVec 32 := 0#32
  let v57 : BitVec 1 := Scalar.cmpi .ne v56 c0_i32_25
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S256x1024_S1024x1024_S256x1024_1_0_0_1_n_n_wf : DotDims.WF S256x1024 S1024x1024 S256x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Data.lean ====
/-
  The pure data of the two kernel regions, at any float instance `F` and at a parameter `V` (the core's buffer
  contents when a region is entered).

  Region 0 projects a block of 256 rows of `x` three times: against `W_query` (each operand split into a leading part
  and a residual, three of the four cross products kept, the result scaled by 1/32), against `W_key` (the same, unscaled)
  and against `W_value` (one product).  Each output block is ONE whole-block store of a payload of the input blocks.

  Region 1 walks a 4 x 8 grid: point `t` holds query block `t / 8` and key/value block `t % 8`.  Three scratch
  buffers carry, per query row, the running maximum `m`, the running denominator `l` and the running numerator `a`
  of a softmax over the keys seen so far.  At a query block's first point they restart from (-inf, 0, 0); every point
  applies one streaming update; the output block is `a / l` after the last point of the query block.
-/
import proofs.«171237_j90855738180064_2_alg».proof.Proof.Gen.Kernel.Launch
import proofs.«171237_j90855738180064_2_alg».proof.Proof.Gen.Kernel.Skeleton
import proofs.«171237_j90855738180064_2_alg».proof.Proof.Gen.Kernel.Points
import Idealize.ShloMosaic.Lib.Pipeline.FrameBody

noncomputable section

namespace Cert.Kernel.Flash

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-! ## Region 0: the three projections -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 x 1024 block and the whole 1024 x 1024 block, as the body's loads and stores name them. -/
abbrev rRows : Rect S256x1024 := Rect.unit (s := S256x1024) ![0, 0] S256x1024.size inb_S256x1024_S256x1024_0_0
abbrev rSq : Rect S1024x1024 := Rect.unit (s := S1024x1024) ![0, 0] S1024x1024.size inb_S1024x1024_S1024x1024_0_0

/-- The scaled query projection of a block of rows. -/
def projQ (x : Vec F S256x1024 .f32) (w : Vec F S1024x1024 .f32) : Vec F S256x1024 .f32 := k0_pay3 x w
/-- The key projection of a block of rows. -/
def projK (x : Vec F S256x1024 .f32) (w : Vec F S1024x1024 .f32) : Vec F S256x1024 .f32 := k0_pay4 x w
/-- The value projection of a block of rows (the weights already narrowed on the host). -/
def projV (x : Vec F S256x1024 .f32) (w : Vec F S1024x1024 .bf16) : Vec F S256x1024 .bf16 := k0_pay5 x w

/-! ## Region 1: the streaming softmax state -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the three scratch buffers hold: the running maximum, denominator and numerator. -/
structure St (F : FTy → Type) [FloatOps F] where
  m : Vec F S1024x1 .f32
  l : Vec F S1024x1 .f32
  a : Vec F S1024x1024 .f32

/-- The state a query block starts from: maximum -inf, denominator 0, numerator 0. -/
def St.init : St F := ⟨k1_pay5, k1_pay6, k1_pay7⟩

/-- One streaming update by a block of 512 keys and values. -/
def St.step (q : Vec F S1024x1024 .f32) (k : Vec F S512x1024 .f32) (v : Vec F S512x1024 .bf16) (s : St F) : St F :=
  ⟨k1_pay3 (k1_pay10 q k s.m),
   k1_pay1 (k1_pay13 q k s.m s.m s.l) (k1_pay14 q k s.m),
   k1_pay2 (k1_pay8 v) (k1_pay11 q k s.m s.m) (k1_pay12 q k s.m) s.a⟩

/-- The normalised block: numerator over denominator. -/
def St.out (s : St F) : Vec F S1024x1024 .f32 := k1_pay4 s.a s.l

/-- The scratch state after the body at position `n` of the grid: the update by the point's blocks of the state the point
    starts from — the fresh state at a query block's first point (`n % 8 = 0`), else what position `n - 1` left. -/
def flashAt (c : Dev nD) : (n : ℕ) → n < cfg1.N → St F
  | 0, hn => St.step (iblk1 V c 0 ⟨0, hn⟩) (iblk1 V c 1 ⟨0, hn⟩) (iblk1 V c 2 ⟨0, hn⟩) St.init
  | n + 1, hn =>
    St.step (iblk1 V c 0 ⟨n + 1, hn⟩) (iblk1 V c 1 ⟨n + 1, hn⟩) (iblk1 V c 2 ⟨n + 1, hn⟩)
      (if (n + 1) % 8 = 0 then St.init else flashAt c n (Nat.lt_of_succ_lt hn))

/-- The state point `t` starts from. -/
def flashBefore (c : Dev nD) (t : Fin cfg1.N) : St F :=
  if h : t.val % 8 = 0 then St.init else flashAt V c (t.val - 1) (Nat.lt_of_le_of_lt (Nat.sub_le _ _) t.isLt)

theorem flashAt_eq (c : Dev nD) (t : Fin cfg1.N) :
    flashAt V c t.val t.isLt = St.step (iblk1 V c 0 t) (iblk1 V c 1 t) (iblk1 V c 2 t) (flashBefore V c t) := by
  obtain ⟨n, hn⟩ := t
  cases n with
  | zero => simp [flashAt, flashBefore]
  | succ n =>
    unfold flashBefore
    by_cases h : (n + 1) % 8 = 0
    · simp [flashAt, h]
    · simp [flashAt, h]

end Cert.Kernel.Flash

end
-- ==== Proof.K.Region0.lean ====
/-
  Region 0's half of the frame, at any float instance and at a parameter `V` (the core's buffer contents when the
  region is entered).

  The region walks 16 points; point `t` holds rows `256 t … 256 t + 255` of `x` and, at every point, the whole of the three
  weight matrices.  Its body reads the four input blocks whole, and writes three output blocks, each by ONE store of the
  whole block: the scaled query projection, the key projection and the value projection of the block of rows.

  What is proved here: the body, run on whole buffers holding those blocks, leaves the inputs as they were and the three
  outputs at `projQ`, `projK`, `projV` of the blocks; hence the pipeline's body obligation for the proof data whose
  "after the body" contents are exactly those.
-/
import proofs.«171237_j90855738180064_2_alg».proof.Proof.Gen.Kernel.Launch
import proofs.«171237_j90855738180064_2_alg».proof.Proof.Gen.Kernel.Skeleton
import proofs.«171237_j90855738180064_2_alg».proof.Proof.Gen.Kernel.Points
import proofs.«171237_j90855738180064_2_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the blocks have production extents (256 x 1024 and 1024 x 1024 entries): membership in one is a deep term
set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks at every point -/

/-- The rows block: fetched at every point, so the buffer the body is handed holds the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The query weights: fetched at the first point only; the body never writes them and the block index never moves,
    so the buffer still holds the (whole) matrix at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The key weights, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The value weights, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output buffer -/

/-- The output buffers after the body, from the contents of the input buffers: each is written by ONE store of the whole
    block, whose payload is computed from the input blocks as loaded (whole). -/
def out0_4 (x : Vec F S256x1024 .f32) (wq : Vec F S1024x1024 .f32) : Vec F S256x1024 .f32 :=
  View.canon [⟨rRows, k0_pay3 (View.ld x rRows) (View.ld wq rSq)⟩]
def out0_5 (x : Vec F S256x1024 .f32) (wk : Vec F S1024x1024 .f32) : Vec F S256x1024 .f32 :=
  View.canon [⟨rRows, k0_pay4 (View.ld x rRows) (View.ld wk rSq)⟩]
def out0_6 (x : Vec F S256x1024 .f32) (wv : Vec F S1024x1024 .bf16) : Vec F S256x1024 .bf16 :=
  View.canon [⟨rRows, k0_pay5 (View.ld x rRows) (View.ld wv rSq)⟩]

/-- The one store is of the whole block, so it covers every entry of the block (at either element type). -/
theorem cover0 {e : EltTy} (p : Vec F S256x1024 e) (y : S256x1024.Idx) :
    ∃ pc ∈ ([⟨rRows, p⟩] : List (View.Piece (Elt F) S256x1024 e)), y ∈ pc.1.set :=
  View.cover_of_tiled [⟨rRows, p⟩] S256x1024.size (by rfl) y

/-! ## The body's triple -/

set_option maxHeartbeats 1000000 in
/-- The body on whole buffers — the four inputs' at contents `x`, `wq`, `wk`, `wv`, the three outputs' at anything (the
    body loads each output buffer before storing into it, and drops what it loaded) — runs to the continuation holding the
    inputs' as they were and each output's at its projection of the inputs'. -/
theorem sound_kernel0 (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x : Vec F S256x1024 .f32) (wq wk : Vec F S1024x1024 .f32) (wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (out0_4 x wq) ∗ owns (c : Thread nD τ) arg6 fullShare (out0_5 x wk)
            ∗ owns (c : Thread nD τ) arg7 fullShare (out0_6 x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The outputs in plain form -/

/-- The offsets of the whole-block rectangles are zero. -/
theorem zeros2 : (![0, 0] : Fin 2 → Nat) = fun _ => 0 := funext fun a => by fin_cases a <;> rfl

/-- One store of the whole block leaves its payload, and a load of the whole block reads the block: the three outputs
    are the projections of the input blocks themselves. -/
theorem out0_4_eq (x : Vec F S256x1024 .f32) (wq : Vec F S1024x1024 .f32) : out0_4 x wq = projQ x wq := by
  unfold out0_4 projQ
  rw [View.canon_unit_zero zeros2]
  simp only [View.ld_unit_zero (S := S256x1024) zeros2, View.ld_unit_zero (S := S1024x1024) zeros2]
theorem out0_5_eq (x : Vec F S256x1024 .f32) (wk : Vec F S1024x1024 .f32) : out0_5 x wk = projK x wk := by
  unfold out0_5 projK
  rw [View.canon_unit_zero zeros2]
  simp only [View.ld_unit_zero (S := S256x1024) zeros2, View.ld_unit_zero (S := S1024x1024) zeros2]
theorem out0_6_eq (x : Vec F S256x1024 .f32) (wv : Vec F S1024x1024 .bf16) : out0_6 x wv = projV x wv := by
  unfold out0_6 projV
  rw [View.canon_unit_zero zeros2]
  simp only [View.ld_unit_zero (S := S256x1024) zeros2, View.ld_unit_zero (S := S1024x1024) zeros2]

/-! ## The pipeline's proof data -/

/-- The proof data of the region on core `c`: the arrays as the region finds them; after the body at point `t` each
    input's buffer still at its block, and the three outputs' at the scaled query, key and value projections of the
    point's block of rows; the invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projQ (iblk0 V c 0 t) (iblk0 V c 1 t)
    | ⟨5, _⟩ => projK (iblk0 V c 0 t) (iblk0 V c 2 t)
    | ⟨6, _⟩ => projV (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = projQ (iblk0 V c 0 t) (iblk0 V c 1 t) := by dsimp only [dat0]
theorem after0_5 (c : Dev nD) (t : Fin cfg0.N) : (dat0 V c).after 5 t = projK (iblk0 V c 0 t) (iblk0 V c 2 t) := by dsimp only [dat0]
theorem after0_6 (c : Dev nD) (t : Fin cfg0.N) : (dat0 V c).after 6 t = projV (iblk0 V c 0 t) (iblk0 V c 3 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and each window's current buffer —
    an input's at its block, an output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debt, and every buffer at the proof data's "after". -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; it leaves the outputs at
    the projections of those blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6,
    ← out0_4_eq, ← out0_5_eq, ← out0_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Flash

end
-- ==== Proof.LibWholeStores.lean ====
/-
  Several stores through the whole block, then a load through it.

  A buffer's block that is stored whole several times holds what the LAST store put there, whatever the earlier stores
  were; so a load through the whole block, of a list of such stores (last first), reads the first entry's value. The
  library has this for a single store; here it is for any number of earlier ones — what an accumulator that is zeroed,
  read back, updated and read back again within one body needs.
-/
import Idealize.ShloMosaic.Lib.Pipeline.Value

noncomputable section

namespace Cert.Lib.WholeStores

open Idealize.ShloMosaic

/-- A load through the whole-shape rectangle at zero offsets of what the LAST store through it left reads that
    store's value, whatever was stored before. -/
theorem readCov_cons_unit_zero {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.Lib.WholeStores

end
-- ==== Proof.K.Region1.lean ====
/-
  Region 1, its half of the frame: the second call, a streaming softmax over a 4 x 8 grid, at any float instance `F` and
  at a parameter `V` (the core's buffer contents when the region is entered).

  Point `t` of the grid holds query block `t / 8` and key/value block `t % 8`. Three scratch buffers are carried from one
  point to the next: per query row the running maximum `m`, the running denominator `l` and the running numerator `a`
  of a softmax over the keys seen so far. One run of the body reads the point's query, key and value blocks and applies
  one streaming update to that state. There are three cases, told apart by `t % 8`:

  * `t % 8 = 0`, a query block's first point: the scratch is first reset to the fresh state (-inf, 0, 0), whatever it
    held, and the update starts from that; so after the point the scratch holds the update of the fresh state;
  * `0 < t % 8 < 7`: the scratch holds what the point before left, and after the point its update;
  * `t % 8 = 7`, a query block's last point: as the middle points, and then the output block is written with the new
    numerator divided by the new denominator. Only here does the body store into the output window; at every other point
    that window is idle, its buffer is handed back as it came, and nothing is written back to the array.

  Hence, by induction on the position, after position `n` the scratch holds `flashAt V c n`: the region invariant below.
  Every load and store goes through the whole block of its buffer, so what a buffer reads after the body is the value of
  the last store into it, and a load that follows a store reads that store's value.
-/
import proofs.«171237_j90855738180064_2_alg».proof.Proof.Gen.Kernel.Launch
import proofs.«171237_j90855738180064_2_alg».proof.Proof.Gen.Kernel.Skeleton
import proofs.«171237_j90855738180064_2_alg».proof.Proof.Gen.Kernel.Points
import proofs.«171237_j90855738180064_2_alg».proof.Proof.K.Data
import proofs.«171237_j90855738180064_2_alg».proof.Proof.LibWholeStores
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Loads and stores through a whole block

Every load and store of this body goes through the whole block of its buffer. A store through the whole block, made last,
leaves its value whatever was stored before; a load through it reads the contents. -/

section WholeBlock

variable {Val : EltTy → Type} [∀ e, Nonempty (Val e)] {sg : RefSig} {κ : Kind} {sp : Space} {S : Shape} {e : EltTy}

/-- Read back after a list of stores (last first) whose last went through the whole block: that store's value. -/
theorem read_writes_whole (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz]

/-- A load through the whole block of a whole buffer held at the contents that read `X` reads `X`. -/
theorem readAt_whole_unread {m : Memref sg κ sp S e} (h : m.IsWhole) {off : Fin S.rank → Nat} (hz : off = fun _ => 0)
    (inb : ∀ a, off a + S.size a ≤ S.size a) (X : S.Idx → Val e) :
    View.readAt Val m.view (Rect.unit off S.size inb).toLoadRect (h.unread X) = X :=
  (View.readAt_eq_ld m.view (h.unread X) (Rect.unit off S.size inb)).trans (by rw [h.read_unread, View.ld_unit_zero hz])

end WholeBlock

/-- The two zero offsets of a block's origin are the zero function. -/
theorem zeros2 : (![0, 0] : Fin 2 → Nat) = fun _ => 0 := by funext a; fin_cases a <;> rfl

/-- The three block shapes of this body, one lemma each: a load of the whole block of a buffer held at `X` reads `X`, -/
theorem ldSq {e : EltTy} {m : Memref sig .tc .vmem S1024x1024 e} (h : m.IsWhole) (X : S1024x1024.Idx → Elt F e) :
    View.readAt (Elt F) m.view (Rect.unit (s := S1024x1024) ![0, 0] S1024x1024.size inb_S1024x1024_S1024x1024_0_0).toLoadRect (h.unread X) = X :=
  readAt_whole_unread h zeros2 _ X
theorem ldKV {e : EltTy} {m : Memref sig .tc .vmem S512x1024 e} (h : m.IsWhole) (X : S512x1024.Idx → Elt F e) :
    View.readAt (Elt F) m.view (Rect.unit (s := S512x1024) ![0, 0] S512x1024.size inb_S512x1024_S512x1024_0_0).toLoadRect (h.unread X) = X :=
  readAt_whole_unread h zeros2 _ X
theorem ldCol {e : EltTy} {m : Memref sig .tc .vmem S1024x1 e} (h : m.IsWhole) (X : S1024x1.Idx → Elt F e) :
    View.readAt (Elt F) m.view (Rect.unit (s := S1024x1) ![0, 0] S1024x1.size inb_S1024x1_S1024x1_0_0).toLoadRect (h.unread X) = X :=
  readAt_whole_unread h zeros2 _ X
/-- and a load of the whole block after stores the last of which went through the whole block reads that store's value. -/
theorem rcSq {e : EltTy} (v : View sig .tc .vmem S1024x1024 e) (w : S1024x1024.Idx → Elt F e) (L : List (View.Piece (Elt F) S1024x1024 e)) :
    v.readCov ((⟨Rect.unit (s := S1024x1024) ![0, 0] S1024x1024.size inb_S1024x1024_S1024x1024_0_0, w⟩ : View.Piece (Elt F) S1024x1024 e) :: L)
      (Rect.unit (s := S1024x1024) ![0, 0] S1024x1024.size inb_S1024x1024_S1024x1024_0_0).toLoadRect = w :=
  Cert.Lib.WholeStores.readCov_cons_unit_zero v zeros2 _ w L
theorem rcCol {e : EltTy} (v : View sig .tc .vmem S1024x1 e) (w : S1024x1.Idx → Elt F e) (L : List (View.Piece (Elt F) S1024x1 e)) :
    v.readCov ((⟨Rect.unit (s := S1024x1) ![0, 0] S1024x1.size inb_S1024x1_S1024x1_0_0, w⟩ : View.Piece (Elt F) S1024x1 e) :: L)
      (Rect.unit (s := S1024x1) ![0, 0] S1024x1.size inb_S1024x1_S1024x1_0_0).toLoadRect = w :=
  Cert.Lib.WholeStores.readCov_cons_unit_zero v zeros2 _ w L

/-! ## The body's two conditionals

The grid is 4 x 8 and point `t` has key/value block `t % 8`. The first conditional asks whether that block is the
first of its query block (then the scratch is reset), the second whether it is the last (then the output is written). -/

/-- The first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are live -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a query block's last point the output window is idle: the body stores nothing into it, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At a query block's last point it is live. -/
theorem liveAt1_3 : ∀ t : Fin cfg1.N, cond1_1 (grid1.coords t) → cfg1.idle 3 (grid1.coords t) = false := by decide +kernel

/-! ## The memrefs the body is called with -/

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers, whole: the running maximum, the running denominator, the running numerator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-! ## One run of the body, in each of its three cases

In every case the body reads the query block `q`, the key block `k` and the value block `v`, applies one streaming
update `St.step q k v` to the state `(m, l, a)` it finds in the scratch, and stores the new state: the denominator
first, then the numerator, then the maximum. What differs is the state it starts from and whether the output is written. -/

set_option maxHeartbeats 4000000 in
/-- FIRST point of a query block: the scratch, whatever it held, is first reset to the fresh state (maximum -inf,
    denominator 0, numerator 0), which the update then reads back; the output block is left as found. -/
theorem run1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (q : Vec F S1024x1024 .f32) (k : Vec F S512x1024 .f32) (v : Vec F S512x1024 .bf16)
    (xo : Vec F S1024x1024 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v ∗ owns (c : Thread nD τ) arg5 fullShare xo
            ∗ owns (c : Thread nD τ) arg6 fullShare (St.step q k v St.init).m ∗ owns (c : Thread nD τ) arg7 fullShare (St.step q k v St.init).l
            ∗ owns (c : Thread nD τ) arg8 fullShare (St.step q k v St.init).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; refine (read_writes_whole _ _ zeros2 _ _ _).trans ?_
    delta run1_A.sl.v25 run1_A.sl.H6_1
    simp only [ldSq harg2, ldKV harg3, ldKV harg4, rcCol arg6.view]; rfl
  isplitl [H7]
  · iexists _; isplitr
    swap; · iexact H7
    ipureintro; refine (read_writes_whole _ _ zeros2 _ _ _).trans ?_
    delta run1_A.sl.v25 run1_A.sl.v35 run1_A.sl.H6_1 run1_A.sl.H7_1
    simp only [ldSq harg2, ldKV harg3, ldKV harg4, rcCol arg6.view, rcCol arg7.view]; rfl
  iexists _; isplitr
  swap; · iexact H8
  ipureintro; refine (read_writes_whole _ _ zeros2 _ _ _).trans ?_
  delta run1_A.sl.v25 run1_A.sl.v43 run1_A.sl.H6_1 run1_A.sl.H8_1
  simp only [ldSq harg2, ldKV harg3, ldKV harg4, rcCol arg6.view, rcSq arg8.view]; rfl

set_option maxHeartbeats 4000000 in
/-- MIDDLE point: the scratch holds the state `s` the point before left; it is updated; the output block is left as found. -/
theorem run1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (q : Vec F S1024x1024 .f32) (k : Vec F S512x1024 .f32) (v : Vec F S512x1024 .bf16) (s : St F)
    (xo : Vec F S1024x1024 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare xo
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v ∗ owns (c : Thread nD τ) arg5 fullShare xo
            ∗ owns (c : Thread nD τ) arg6 fullShare (St.step q k v s).m ∗ owns (c : Thread nD τ) arg7 fullShare (St.step q k v s).l
            ∗ owns (c : Thread nD τ) arg8 fullShare (St.step q k v s).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; refine (read_writes_whole _ _ zeros2 _ _ _).trans ?_
    simp only [ldSq harg2, ldKV harg3, ldKV harg4, ldCol harg6, ldCol harg7, ldSq harg8]; rfl
  isplitl [H7]
  · iexists _; isplitr
    swap; · iexact H7
    ipureintro; refine (read_writes_whole _ _ zeros2 _ _ _).trans ?_
    simp only [ldSq harg2, ldKV harg3, ldKV harg4, ldCol harg6, ldCol harg7, ldSq harg8]; rfl
  iexists _; isplitr
  swap; · iexact H8
  ipureintro; refine (read_writes_whole _ _ zeros2 _ _ _).trans ?_
  simp only [ldSq harg2, ldKV harg3, ldKV harg4, ldCol harg6, ldCol harg7, ldSq harg8]; rfl

set_option maxHeartbeats 4000000 in
/-- LAST point of a query block: as a middle point, and then the output block, whatever it held, is stored with the new
    numerator over the new denominator, both read back from the scratch just stored. -/
theorem run1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (q : Vec F S1024x1024 .f32) (k : Vec F S512x1024 .f32) (v : Vec F S512x1024 .bf16) (s : St F)
    (E : Set ℕ) (K : PUnit → sProp 𝕄) :
    iprop(owns (c : Thread nD τ) arg2 fullShare q ∗ owns (c : Thread nD τ) arg3 fullShare k ∗ owns (c : Thread nD τ) arg4 fullShare v ∗ (∃ d, owns (c : Thread nD τ) arg5 fullShare d)
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v ∗ owns (c : Thread nD τ) arg5 fullShare (St.step q k v s).out
            ∗ owns (c : Thread nD τ) arg6 fullShare (St.step q k v s).m ∗ owns (c : Thread nD τ) arg7 fullShare (St.step q k v s).l
            ∗ owns (c : Thread nD τ) arg8 fullShare (St.step q k v s).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; refine (read_writes_whole _ _ zeros2 _ _ _).trans ?_
    delta run1_C.sl.v58 run1_C.sl.v59 run1_C.sl.H8_1 run1_C.sl.H7_1
    simp only [ldSq harg2, ldKV harg3, ldKV harg4, ldCol harg6, ldCol harg7, ldSq harg8, rcSq arg8.view, rcCol arg7.view]; rfl
  isplitl [H6]
  · iexists _; isplitr
    swap; · iexact H6
    ipureintro; refine (read_writes_whole _ _ zeros2 _ _ _).trans ?_
    simp only [ldSq harg2, ldKV harg3, ldKV harg4, ldCol harg6, ldCol harg7, ldSq harg8]; rfl
  isplitl [H7]
  · iexists _; isplitr
    swap; · iexact H7
    ipureintro; refine (read_writes_whole _ _ zeros2 _ _ _).trans ?_
    simp only [ldSq harg2, ldKV harg3, ldKV harg4, ldCol harg6, ldCol harg7, ldSq harg8]; rfl
  iexists _; isplitr
  swap; · iexact H8
  ipureintro; refine (read_writes_whole _ _ zeros2 _ _ _).trans ?_
  simp only [ldSq harg2, ldKV harg3, ldKV harg4, ldCol harg6, ldCol harg7, ldSq harg8]; rfl

variable (V : (c : Dev nD) → (b : Ref sig .tc) → Buf (Elt F) ((c : Thread nD τ).loc b))

/-! ## The region invariant

Between points the core holds, besides the windows' staging buffers, its other scoped buffers: the eleven staging
buffers of the first call, which this call never touches, and the three scratch buffers. Before the first point the
scratch holds anything; after position `n` it holds the streaming state `flashAt V c n`. -/

/-- The first call's eleven staging buffers, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- What the launch hands the region, with the scratch buffers as memrefs owned at some contents. -/
theorem PhiA1_eq (c : Dev nD) :
    (Pipeline.ΦA spec1 c : sProp 𝕄)
      = iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r)) := by
  have h₁ : (Pipeline.ΦA spec1 c : sProp 𝕄)
      ⊢ iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r)) := by
    unfold Pipeline.ΦA others1; rw [scopedRest1_eq]; simp only [scM, scL, scA, owns_whole]
    iintro ⟨⟨H1, H2, H3, H4, H5, H6, H7, H8, H9, H10, H11, HS0, HS1, HS2⟩, Hg⟩
    iframe
  have h₂ : iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r))
      ⊢ (Pipeline.ΦA spec1 c : sProp 𝕄) := by
    unfold Pipeline.ΦA others1; rw [scopedRest1_eq]; simp only [scM, scL, scA, owns_whole]
    iintro ⟨⟨⟨H1, H2, H3, H4, H5, H6, H7, H8, H9, H10, H11⟩, HS0, HS1, HS2⟩, Hg⟩
    iframe
  exact BI.equiv_iff.mp ⟨h₁, h₂⟩

/-- The invariant before position `n`: before the first point what the launch hands over; afterwards the scratch at the
    state the point before left — maximum, denominator, numerator —, the other scoped buffers at anything, the generator
    register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM fullShare (flashAt V c n hn).m
      ∗ owns (c : Thread nD τ) scL fullShare (flashAt V c n hn).l
      ∗ owns (c : Thread nD τ) scA fullShare (flashAt V c n hn).a) ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) :
    PhiS1 V c (n + 1) hn = iprop(iprop(others1 (F := F) c ∗ owns (c : Thread nD τ) scM fullShare (flashAt V c n hn).m
      ∗ owns (c : Thread nD τ) scL fullShare (flashAt V c n hn).l
      ∗ owns (c : Thread nD τ) scA fullShare (flashAt V c n hn).a) ∗ (∃ r, prngReg c r)) := rfl

/-- Before a point that is not the first: the scratch at the state the point before left. -/
theorem PhiS1_pos (c : Dev nD) (n : ℕ) (h : n ≤ cfg1.N) (hz : n ≠ 0) :
    PhiS1 V c n h = iprop(iprop(others1 (F := F) c ∗ owns (c : Thread nD τ) scM fullShare (flashAt V c (n - 1) (by omega)).m
      ∗ owns (c : Thread nD τ) scL fullShare (flashAt V c (n - 1) (by omega)).l
      ∗ owns (c : Thread nD τ) scA fullShare (flashAt V c (n - 1) (by omega)).a) ∗ (∃ r, prngReg c r)) := by
  cases n with
  | zero => exact absurd rfl hz
  | succ n => rfl

/-! ## The proof data -/

/-- The region's proof data on core `c`: the arrays as the region finds them; after the body at point `t` each input's
    buffer at its block and the output's at the normalised state of that point (consulted only at a query block's last
    point, the window being idle elsewhere); the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (flashAt V c t.val t.isLt).out
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (flashAt V c t.val t.isLt).out := by dsimp only [dat1]

/-- Each input's current staging buffer holds its block at every point, fetched there or not: the body leaves the block
    in place, and where the pipeline does not fetch, the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold the point's blocks. The point's position modulo 8 says which case it
    is in. At a query block's first point the invariant hands the scratch over at anything (at the grid's first point)
    or at a state that is discarded (later), and the state after the point is the update of the fresh state; at the other
    points it hands the scratch over at the state the point before left, and the state after the point is its update.
    Only at a query block's last point is the output window live, and there it is left at the normalised new state;
    elsewhere its buffer goes back as it came. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [flashAt_eq V c t]
  have hN : t.val < 32 := lt_of_lt_of_eq t.isLt (show cfg1.N = 32 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [show flashBefore V c t = St.init from dif_pos h0]
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply (run1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply (run1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [show flashBefore V c t = flashAt V c (t.val - 1) (Nat.lt_of_le_of_lt (Nat.sub_le _ _) t.isLt) from dif_neg h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, flashAt_eq V c t]
      rw [show flashBefore V c t = flashAt V c (t.val - 1) (Nat.lt_of_le_of_lt (Nat.sub_le _ _) t.isLt) from dif_neg h0]
      iintro ⟨⟨⟨HR, HS0, HS1, HS2⟩, Hg⟩, Ho, ⟨%d0, H0⟩, ⟨%d1, H1⟩, ⟨%d2, H2⟩, ⟨%d3, H3⟩⟩
      iapply (run1_C c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HR, HS0, HS1, HS2⟩, Hg⟩, Ho, ⟨%d0, H0⟩, ⟨%d1, H1⟩, ⟨%d2, H2⟩, ⟨%d3, H3⟩⟩
      iapply (run1_B c (grid1.coords t) _ _ _ _ _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named state is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Flash

end
-- ==== Proof.K.Run.lean ====
/-
  The run of the whole program, at any float instance.

  @main is three items: one host operation (the value weights narrowed to bf16), the projection kernel, the attention
  kernel.  Between items the core holds every unscoped buffer whole, at contents that are a fold through the items: the
  launch memory; after the host operation; after the projection kernel (its three output arrays at what its write-backs
  leave, everything else as before); after the attention kernel (its output array likewise).  Each kernel is entered from
  the contents before it and left at the contents after it; the generator register and the fact that the core owes
  nothing ride along.  The run's post reads EVERY unscoped buffer at the last contents, so it gives both the frame
  (no item writes an argument) and the result array's value.
-/
import proofs.«171237_j90855738180064_2_alg».proof.Proof.K.Region0
import proofs.«171237_j90855738180064_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => m (c, b)
/-- After the host operation (the projection kernel's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the projection kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the attention kernel's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention kernel: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

/-- The host operation writes only its own result buffer. -/
theorem W1_of_ne (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-- The result array ends at what the attention kernel's write-backs leave. -/
theorem W3_main_v2 (c : Dev nD) : W3 m c (Proc.devRef .tc main_v2) = (dat1 (V2 m) c).arrAt 3 cfg1.N := W3_arr m c 3

/-! ## The proof data family and the thread state -/

/-- No pipeline has a prefetched table. -/
abbrev adm : (p : Fin 2) → (pcfgs (F := F) p).Adm := fun p => (cfgs p).toPCfg_adm
/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host operation as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The projection kernel over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3`.  Its invariant
    starts as the plain one (every scoped buffer at anything, the generator register) and ends giving it back: what the
    scratch buffers hold in between is the kernel's own business. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine .trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

/-- THE RUN WITH THE RESULT NAMED: the result array ends at what the attention kernel's write-backs leave, the arguments
    as launched. -/
theorem run_value : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.Kernel.Flash

end
-- ==== Proof.KI.Data.lean ====
/-
  The pure data of the two kernel regions, at any float instance `F` and at a parameter `V` (the core's buffer
  contents when a region is entered).

  Region 0 projects a block of 256 rows of `x` three times: against `W_query` (each operand split into a leading part
  and a residual, three of the four cross products kept, the result scaled by 1/32), against `W_key` (the same, unscaled)
  and against `W_value` (one product).  Each output block is ONE whole-block store of a payload of the input blocks.

  Region 1 walks a 4 x 8 grid: point `t` holds query block `t / 8` and key/value block `t % 8`.  Three scratch
  buffers carry, per query row, the running maximum `m`, the running denominator `l` and the running numerator `a`
  of a softmax over the keys seen so far.  At a query block's first point they restart from (-inf, 0, 0); every point
  applies one streaming update; the output block is `a / l` after the last point of the query block.
-/
import proofs.«171237_j90855738180064_2_alg».proof.Proof.Gen.KernelIdeal.Launch
import proofs.«171237_j90855738180064_2_alg».proof.Proof.Gen.KernelIdeal.Skeleton
import proofs.«171237_j90855738180064_2_alg».proof.Proof.Gen.KernelIdeal.Points
import Idealize.ShloMosaic.Lib.Pipeline.FrameBody

noncomputable section

namespace Cert.KernelIdeal.Flash

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-! ## Region 0: the three projections -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256 x 1024 block and the whole 1024 x 1024 block, as the body's loads and stores name them. -/
abbrev rRows : Rect S256x1024 := Rect.unit (s := S256x1024) ![0, 0] S256x1024.size inb_S256x1024_S256x1024_0_0
abbrev rSq : Rect S1024x1024 := Rect.unit (s := S1024x1024) ![0, 0] S1024x1024.size inb_S1024x1024_S1024x1024_0_0

/-- The scaled query projection of a block of rows. -/
def projQ (x : Vec F S256x1024 .f32) (w : Vec F S1024x1024 .f32) : Vec F S256x1024 .f32 := k0_pay3 x w
/-- The key projection of a block of rows. -/
def projK (x : Vec F S256x1024 .f32) (w : Vec F S1024x1024 .f32) : Vec F S256x1024 .f32 := k0_pay4 x w
/-- The value projection of a block of rows (the weights already narrowed on the host). -/
def projV (x : Vec F S256x1024 .f32) (w : Vec F S1024x1024 .bf16) : Vec F S256x1024 .bf16 := k0_pay5 x w

/-! ## Region 1: the streaming softmax state -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the three scratch buffers hold: the running maximum, denominator and numerator. -/
structure St (F : FTy → Type) [FloatOps F] where
  m : Vec F S1024x1 .f32
  l : Vec F S1024x1 .f32
  a : Vec F S1024x1024 .f32

/-- The state a query block starts from: maximum -inf, denominator 0, numerator 0. -/
def St.init : St F := ⟨k1_pay5, k1_pay6, k1_pay7⟩

/-- One streaming update by a block of 512 keys and values. -/
def St.step (q : Vec F S1024x1024 .f32) (k : Vec F S512x1024 .f32) (v : Vec F S512x1024 .bf16) (s : St F) : St F :=
  ⟨k1_pay3 (k1_pay10 q k s.m),
   k1_pay1 (k1_pay13 q k s.m s.m s.l) (k1_pay14 q k s.m),
   k1_pay2 (k1_pay8 v) (k1_pay11 q k s.m s.m) (k1_pay12 q k s.m) s.a⟩

/-- The normalised block: numerator over denominator. -/
def St.out (s : St F) : Vec F S1024x1024 .f32 := k1_pay4 s.a s.l

/-- The scratch state after the body at position `n` of the grid: the update by the point's blocks of the state the point
    starts from — the fresh state at a query block's first point (`n % 8 = 0`), else what position `n - 1` left. -/
def flashAt (c : Dev nD) : (n : ℕ) → n < cfg1.N → St F
  | 0, hn => St.step (iblk1 V c 0 ⟨0, hn⟩) (iblk1 V c 1 ⟨0, hn⟩) (iblk1 V c 2 ⟨0, hn⟩) St.init
  | n + 1, hn =>
    St.step (iblk1 V c 0 ⟨n + 1, hn⟩) (iblk1 V c 1 ⟨n + 1, hn⟩) (iblk1 V c 2 ⟨n + 1, hn⟩)
      (if (n + 1) % 8 = 0 then St.init else flashAt c n (Nat.lt_of_succ_lt hn))

/-- The state point `t` starts from. -/
def flashBefore (c : Dev nD) (t : Fin cfg1.N) : St F :=
  if h : t.val % 8 = 0 then St.init else flashAt V c (t.val - 1) (Nat.lt_of_le_of_lt (Nat.sub_le _ _) t.isLt)

theorem flashAt_eq (c : Dev nD) (t : Fin cfg1.N) :
    flashAt V c t.val t.isLt = St.step (iblk1 V c 0 t) (iblk1 V c 1 t) (iblk1 V c 2 t) (flashBefore V c t) := by
  obtain ⟨n, hn⟩ := t
  cases n with
  | zero => simp [flashAt, flashBefore]
  | succ n =>
    unfold flashBefore
    by_cases h : (n + 1) % 8 = 0
    · simp [flashAt, h]
    · simp [flashAt, h]

end Cert.KernelIdeal.Flash

end
-- ==== Proof.KI.Region0.lean ====
/-
  Region 0's half of the frame, at any float instance and at a parameter `V` (the core's buffer contents when the
  region is entered).

  The region walks 16 points; point `t` holds rows `256 t … 256 t + 255` of `x` and, at every point, the whole of the three
  weight matrices.  Its body reads the four input blocks whole, and writes three output blocks, each by ONE store of the
  whole block: the scaled query projection, the key projection and the value projection of the block of rows.

  What is proved here: the body, run on whole buffers holding those blocks, leaves the inputs as they were and the three
  outputs at `projQ`, `projK`, `projV` of the blocks; hence the pipeline's body obligation for the proof data whose
  "after the body" contents are exactly those.
-/
import proofs.«171237_j90855738180064_2_alg».proof.Proof.Gen.KernelIdeal.Launch
import proofs.«171237_j90855738180064_2_alg».proof.Proof.Gen.KernelIdeal.Skeleton
import proofs.«171237_j90855738180064_2_alg».proof.Proof.Gen.KernelIdeal.Points
import proofs.«171237_j90855738180064_2_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the blocks have production extents (256 x 1024 and 1024 x 1024 entries): membership in one is a deep term
set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input buffers hold their blocks at every point -/

/-- The rows block: fetched at every point, so the buffer the body is handed holds the point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The query weights: fetched at the first point only; the body never writes them and the block index never moves,
    so the buffer still holds the (whole) matrix at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The key weights, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The value weights, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in each output buffer -/

/-- The output buffers after the body, from the contents of the input buffers: each is written by ONE store of the whole
    block, whose payload is computed from the input blocks as loaded (whole). -/
def out0_4 (x : Vec F S256x1024 .f32) (wq : Vec F S1024x1024 .f32) : Vec F S256x1024 .f32 :=
  View.canon [⟨rRows, k0_pay3 (View.ld x rRows) (View.ld wq rSq)⟩]
def out0_5 (x : Vec F S256x1024 .f32) (wk : Vec F S1024x1024 .f32) : Vec F S256x1024 .f32 :=
  View.canon [⟨rRows, k0_pay4 (View.ld x rRows) (View.ld wk rSq)⟩]
def out0_6 (x : Vec F S256x1024 .f32) (wv : Vec F S1024x1024 .bf16) : Vec F S256x1024 .bf16 :=
  View.canon [⟨rRows, k0_pay5 (View.ld x rRows) (View.ld wv rSq)⟩]

/-- The one store is of the whole block, so it covers every entry of the block (at either element type). -/
theorem cover0 {e : EltTy} (p : Vec F S256x1024 e) (y : S256x1024.Idx) :
    ∃ pc ∈ ([⟨rRows, p⟩] : List (View.Piece (Elt F) S256x1024 e)), y ∈ pc.1.set :=
  View.cover_of_tiled [⟨rRows, p⟩] S256x1024.size (by rfl) y

/-! ## The body's triple -/

set_option maxHeartbeats 1000000 in
/-- The body on whole buffers — the four inputs' at contents `x`, `wq`, `wk`, `wv`, the three outputs' at anything (the
    body loads each output buffer before storing into it, and drops what it loaded) — runs to the continuation holding the
    inputs' as they were and each output's at its projection of the inputs'. -/
theorem sound_kernel0 (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x : Vec F S256x1024 .f32) (wq wk : Vec F S1024x1024 .f32) (wv : Vec F S1024x1024 .bf16) (K : PUnit → sProp 𝕄) :
    iprop(owns (c : Thread nD τ) arg1 fullShare x ∗ owns (c : Thread nD τ) arg2 fullShare wq
        ∗ owns (c : Thread nD τ) arg3 fullShare wk ∗ owns (c : Thread nD τ) arg4 fullShare wv
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare wq
            ∗ owns (c : Thread nD τ) arg3 fullShare wk ∗ owns (c : Thread nD τ) arg4 fullShare wv
            ∗ owns (c : Thread nD τ) arg5 fullShare (out0_4 x wq) ∗ owns (c : Thread nD τ) arg6 fullShare (out0_5 x wk)
            ∗ owns (c : Thread nD τ) arg7 fullShare (out0_6 x wv)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The outputs in plain form -/

/-- The offsets of the whole-block rectangles are zero. -/
theorem zeros2 : (![0, 0] : Fin 2 → Nat) = fun _ => 0 := funext fun a => by fin_cases a <;> rfl

/-- One store of the whole block leaves its payload, and a load of the whole block reads the block: the three outputs
    are the projections of the input blocks themselves. -/
theorem out0_4_eq (x : Vec F S256x1024 .f32) (wq : Vec F S1024x1024 .f32) : out0_4 x wq = projQ x wq := by
  unfold out0_4 projQ
  rw [View.canon_unit_zero zeros2]
  simp only [View.ld_unit_zero (S := S256x1024) zeros2, View.ld_unit_zero (S := S1024x1024) zeros2]
theorem out0_5_eq (x : Vec F S256x1024 .f32) (wk : Vec F S1024x1024 .f32) : out0_5 x wk = projK x wk := by
  unfold out0_5 projK
  rw [View.canon_unit_zero zeros2]
  simp only [View.ld_unit_zero (S := S256x1024) zeros2, View.ld_unit_zero (S := S1024x1024) zeros2]
theorem out0_6_eq (x : Vec F S256x1024 .f32) (wv : Vec F S1024x1024 .bf16) : out0_6 x wv = projV x wv := by
  unfold out0_6 projV
  rw [View.canon_unit_zero zeros2]
  simp only [View.ld_unit_zero (S := S256x1024) zeros2, View.ld_unit_zero (S := S1024x1024) zeros2]

/-! ## The pipeline's proof data -/

/-- The proof data of the region on core `c`: the arrays as the region finds them; after the body at point `t` each
    input's buffer still at its block, and the three outputs' at the scaled query, key and value projections of the
    point's block of rows; the invariant is the untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => projQ (iblk0 V c 0 t) (iblk0 V c 1 t)
    | ⟨5, _⟩ => projK (iblk0 V c 0 t) (iblk0 V c 2 t)
    | ⟨6, _⟩ => projV (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = projQ (iblk0 V c 0 t) (iblk0 V c 1 t) := by dsimp only [dat0]
theorem after0_5 (c : Dev nD) (t : Fin cfg0.N) : (dat0 V c).after 5 t = projK (iblk0 V c 0 t) (iblk0 V c 2 t) := by dsimp only [dat0]
theorem after0_6 (c : Dev nD) (t : Fin cfg0.N) : (dat0 V c).after 6 t = projV (iblk0 V c 0 t) (iblk0 V c 3 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and each window's current buffer —
    an input's at its block, an output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same invariant and debt, and every buffer at the proof data's "after". -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; it leaves the outputs at
    the projections of those blocks; the invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6,
    ← out0_4_eq, ← out0_5_eq, ← out0_6_eq]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Flash

end
-- ==== Proof.KI.Region1.lean ====
/-
  Region 1, its half of the frame: the second call, a streaming softmax over a 4 x 8 grid, at any float instance `F` and
  at a parameter `V` (the core's buffer contents when the region is entered).

  Point `t` of the grid holds query block `t / 8` and key/value block `t % 8`. Three scratch buffers are carried from one
  point to the next: per query row the running maximum `m`, the running denominator `l` and the running numerator `a`
  of a softmax over the keys seen so far. One run of the body reads the point's query, key and value blocks and applies
  one streaming update to that state. There are three cases, told apart by `t % 8`:

  * `t % 8 = 0`, a query block's first point: the scratch is first reset to the fresh state (-inf, 0, 0), whatever it
    held, and the update starts from that; so after the point the scratch holds the update of the fresh state;
  * `0 < t % 8 < 7`: the scratch holds what the point before left, and after the point its update;
  * `t % 8 = 7`, a query block's last point: as the middle points, and then the output block is written with the new
    numerator divided by the new denominator. Only here does the body store into the output window; at every other point
    that window is idle, its buffer is handed back as it came, and nothing is written back to the array.

  Hence, by induction on the position, after position `n` the scratch holds `flashAt V c n`: the region invariant below.
  Every load and store goes through the whole block of its buffer, so what a buffer reads after the body is the value of
  the last store into it, and a load that follows a store reads that store's value.
-/
import proofs.«171237_j90855738180064_2_alg».proof.Proof.Gen.KernelIdeal.Launch
import proofs.«171237_j90855738180064_2_alg».proof.Proof.Gen.KernelIdeal.Skeleton
import proofs.«171237_j90855738180064_2_alg».proof.Proof.Gen.KernelIdeal.Points
import proofs.«171237_j90855738180064_2_alg».proof.Proof.KI.Data
import proofs.«171237_j90855738180064_2_alg».proof.Proof.LibWholeStores
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Loads and stores through a whole block

Every load and store of this body goes through the whole block of its buffer. A store through the whole block, made last,
leaves its value whatever was stored before; a load through it reads the contents. -/

section WholeBlock

variable {Val : EltTy → Type} [∀ e, Nonempty (Val e)] {sg : RefSig} {κ : Kind} {sp : Space} {S : Shape} {e : EltTy}

/-- Read back after a list of stores (last first) whose last went through the whole block: that store's value. -/
theorem read_writes_whole (v : View sg κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz]

/-- A load through the whole block of a whole buffer held at the contents that read `X` reads `X`. -/
theorem readAt_whole_unread {m : Memref sg κ sp S e} (h : m.IsWhole) {off : Fin S.rank → Nat} (hz : off = fun _ => 0)
    (inb : ∀ a, off a + S.size a ≤ S.size a) (X : S.Idx → Val e) :
    View.readAt Val m.view (Rect.unit off S.size inb).toLoadRect (h.unread X) = X :=
  (View.readAt_eq_ld m.view (h.unread X) (Rect.unit off S.size inb)).trans (by rw [h.read_unread, View.ld_unit_zero hz])

end WholeBlock

/-- The two zero offsets of a block's origin are the zero function. -/
theorem zeros2 : (![0, 0] : Fin 2 → Nat) = fun _ => 0 := by funext a; fin_cases a <;> rfl

/-- The three block shapes of this body, one lemma each: a load of the whole block of a buffer held at `X` reads `X`, -/
theorem ldSq {e : EltTy} {m : Memref sig .tc .vmem S1024x1024 e} (h : m.IsWhole) (X : S1024x1024.Idx → Elt F e) :
    View.readAt (Elt F) m.view (Rect.unit (s := S1024x1024) ![0, 0] S1024x1024.size inb_S1024x1024_S1024x1024_0_0).toLoadRect (h.unread X) = X :=
  readAt_whole_unread h zeros2 _ X
theorem ldKV {e : EltTy} {m : Memref sig .tc .vmem S512x1024 e} (h : m.IsWhole) (X : S512x1024.Idx → Elt F e) :
    View.readAt (Elt F) m.view (Rect.unit (s := S512x1024) ![0, 0] S512x1024.size inb_S512x1024_S512x1024_0_0).toLoadRect (h.unread X) = X :=
  readAt_whole_unread h zeros2 _ X
theorem ldCol {e : EltTy} {m : Memref sig .tc .vmem S1024x1 e} (h : m.IsWhole) (X : S1024x1.Idx → Elt F e) :
    View.readAt (Elt F) m.view (Rect.unit (s := S1024x1) ![0, 0] S1024x1.size inb_S1024x1_S1024x1_0_0).toLoadRect (h.unread X) = X :=
  readAt_whole_unread h zeros2 _ X
/-- and a load of the whole block after stores the last of which went through the whole block reads that store's value. -/
theorem rcSq {e : EltTy} (v : View sig .tc .vmem S1024x1024 e) (w : S1024x1024.Idx → Elt F e) (L : List (View.Piece (Elt F) S1024x1024 e)) :
    v.readCov ((⟨Rect.unit (s := S1024x1024) ![0, 0] S1024x1024.size inb_S1024x1024_S1024x1024_0_0, w⟩ : View.Piece (Elt F) S1024x1024 e) :: L)
      (Rect.unit (s := S1024x1024) ![0, 0] S1024x1024.size inb_S1024x1024_S1024x1024_0_0).toLoadRect = w :=
  Cert.Lib.WholeStores.readCov_cons_unit_zero v zeros2 _ w L
theorem rcCol {e : EltTy} (v : View sig .tc .vmem S1024x1 e) (w : S1024x1.Idx → Elt F e) (L : List (View.Piece (Elt F) S1024x1 e)) :
    v.readCov ((⟨Rect.unit (s := S1024x1) ![0, 0] S1024x1.size inb_S1024x1_S1024x1_0_0, w⟩ : View.Piece (Elt F) S1024x1 e) :: L)
      (Rect.unit (s := S1024x1) ![0, 0] S1024x1.size inb_S1024x1_S1024x1_0_0).toLoadRect = w :=
  Cert.Lib.WholeStores.readCov_cons_unit_zero v zeros2 _ w L

/-! ## The body's two conditionals

The grid is 4 x 8 and point `t` has key/value block `t % 8`. The first conditional asks whether that block is the
first of its query block (then the scratch is reset), the second whether it is the last (then the output is written). -/

/-- The first conditional, from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are live -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a query block's last point the output window is idle: the body stores nothing into it, -/
theorem idleAt1_3 : ∀ t : Fin cfg1.N, ¬cond1_1 (grid1.coords t) → cfg1.idle 3 (grid1.coords t) = true := by decide +kernel
/-- and its block is not written back there. -/
theorem noFlush1_3 : ∀ t : Fin cfg1.N, ¬cond1_1 (grid1.coords t) → (cfg1.win 3).flush t = false := by decide +kernel
/-- At a query block's last point it is live. -/
theorem liveAt1_3 : ∀ t : Fin cfg1.N, cond1_1 (grid1.coords t) → cfg1.idle 3 (grid1.coords t) = false := by decide +kernel

/-! ## The memrefs the body is called with -/

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The three scratch buffers, whole: the running maximum, the running denominator, the running numerator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-! ## One run of the body, in each of its three cases

In every case the body reads the query block `q`, the key block `k` and the value block `v`, applies one streaming
update `St.step q k v` to the state `(m, l, a)` it finds in the scratch, and stores the new state: the denominator
first, then the numerator, then the maximum. What differs is the state it starts from and whether the output is written. -/

set_option maxHeartbeats 4000000 in
/-- FIRST point of a query block: the scratch, whatever it held, is first reset to the fresh state (maximum -inf,
    denominator 0, numerator 0), which the update then reads back; the output block is left as found. -/
theorem run1_A (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (q : Vec F S1024x1024 .f32) (k : Vec F S512x1024 .f32) (v : Vec F S512x1024 .bf16)
    (xo : Vec F S1024x1024 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare xo
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v ∗ owns (c : Thread nD τ) arg5 fullShare xo
            ∗ owns (c : Thread nD τ) arg6 fullShare (St.step q k v St.init).m ∗ owns (c : Thread nD τ) arg7 fullShare (St.step q k v St.init).l
            ∗ owns (c : Thread nD τ) arg8 fullShare (St.step q k v St.init).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; refine (read_writes_whole _ _ zeros2 _ _ _).trans ?_
    delta run1_A.sl.v25 run1_A.sl.H6_1
    simp only [ldSq harg2, ldKV harg3, ldKV harg4, rcCol arg6.view]; rfl
  isplitl [H7]
  · iexists _; isplitr
    swap; · iexact H7
    ipureintro; refine (read_writes_whole _ _ zeros2 _ _ _).trans ?_
    delta run1_A.sl.v25 run1_A.sl.v35 run1_A.sl.H6_1 run1_A.sl.H7_1
    simp only [ldSq harg2, ldKV harg3, ldKV harg4, rcCol arg6.view, rcCol arg7.view]; rfl
  iexists _; isplitr
  swap; · iexact H8
  ipureintro; refine (read_writes_whole _ _ zeros2 _ _ _).trans ?_
  delta run1_A.sl.v25 run1_A.sl.v43 run1_A.sl.H6_1 run1_A.sl.H8_1
  simp only [ldSq harg2, ldKV harg3, ldKV harg4, rcCol arg6.view, rcSq arg8.view]; rfl

set_option maxHeartbeats 4000000 in
/-- MIDDLE point: the scratch holds the state `s` the point before left; it is updated; the output block is left as found. -/
theorem run1_B (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (q : Vec F S1024x1024 .f32) (k : Vec F S512x1024 .f32) (v : Vec F S512x1024 .bf16) (s : St F)
    (xo : Vec F S1024x1024 .f32) (E : Set ℕ) (K : PUnit → sProp 𝕄) :
    iprop(owns (c : Thread nD τ) arg2 fullShare q ∗ owns (c : Thread nD τ) arg3 fullShare k ∗ owns (c : Thread nD τ) arg4 fullShare v ∗ owns (c : Thread nD τ) arg5 fullShare xo
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v ∗ owns (c : Thread nD τ) arg5 fullShare xo
            ∗ owns (c : Thread nD τ) arg6 fullShare (St.step q k v s).m ∗ owns (c : Thread nD τ) arg7 fullShare (St.step q k v s).l
            ∗ owns (c : Thread nD τ) arg8 fullShare (St.step q k v s).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro; refine (read_writes_whole _ _ zeros2 _ _ _).trans ?_
    simp only [ldSq harg2, ldKV harg3, ldKV harg4, ldCol harg6, ldCol harg7, ldSq harg8]; rfl
  isplitl [H7]
  · iexists _; isplitr
    swap; · iexact H7
    ipureintro; refine (read_writes_whole _ _ zeros2 _ _ _).trans ?_
    simp only [ldSq harg2, ldKV harg3, ldKV harg4, ldCol harg6, ldCol harg7, ldSq harg8]; rfl
  iexists _; isplitr
  swap; · iexact H8
  ipureintro; refine (read_writes_whole _ _ zeros2 _ _ _).trans ?_
  simp only [ldSq harg2, ldKV harg3, ldKV harg4, ldCol harg6, ldCol harg7, ldSq harg8]; rfl

set_option maxHeartbeats 4000000 in
/-- LAST point of a query block: as a middle point, and then the output block, whatever it held, is stored with the new
    numerator over the new denominator, both read back from the scratch just stored. -/
theorem run1_C (c : Dev nD) (i : grid1.Coords) (arg2 : Memref sig .tc .vmem S1024x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (q : Vec F S1024x1024 .f32) (k : Vec F S512x1024 .f32) (v : Vec F S512x1024 .bf16) (s : St F)
    (E : Set ℕ) (K : PUnit → sProp 𝕄) :
    iprop(owns (c : Thread nD τ) arg2 fullShare q ∗ owns (c : Thread nD τ) arg3 fullShare k ∗ owns (c : Thread nD τ) arg4 fullShare v ∗ (∃ d, owns (c : Thread nD τ) arg5 fullShare d)
        ∗ owns (c : Thread nD τ) arg6 fullShare s.m ∗ owns (c : Thread nD τ) arg7 fullShare s.l ∗ owns (c : Thread nD τ) arg8 fullShare s.a
        ∗ (iprop(owns (c : Thread nD τ) arg2 fullShare q ∗ owns (c : Thread nD τ) arg3 fullShare k ∗ owns (c : Thread nD τ) arg4 fullShare v ∗ owns (c : Thread nD τ) arg5 fullShare (St.step q k v s).out
            ∗ owns (c : Thread nD τ) arg6 fullShare (St.step q k v s).m ∗ owns (c : Thread nD τ) arg7 fullShare (St.step q k v s).l
            ∗ owns (c : Thread nD τ) arg8 fullShare (St.step q k v s).a) -∗ K ⟨⟩))
      ⊢ wp frame (wpE (defs₀ (F := F)) Variants.none c none) E (cc1__flash_kernel i arg2 harg2 arg3 harg3 arg4 harg4 arg5 harg5 arg6 harg6 arg7 harg7 arg8 harg8) K := by
  simp only [cc1__flash_kernel_eq_skeleton]; unfold cc1__flash_kernel_skel
  simp only [k1_part1_eq_skeleton]; unfold k1_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro; refine (read_writes_whole _ _ zeros2 _ _ _).trans ?_
    delta run1_C.sl.v58 run1_C.sl.v59 run1_C.sl.H8_1 run1_C.sl.H7_1
    simp only [ldSq harg2, ldKV harg3, ldKV harg4, ldCol harg6, ldCol harg7, ldSq harg8, rcSq arg8.view, rcCol arg7.view]; rfl
  isplitl [H6]
  · iexists _; isplitr
    swap; · iexact H6
    ipureintro; refine (read_writes_whole _ _ zeros2 _ _ _).trans ?_
    simp only [ldSq harg2, ldKV harg3, ldKV harg4, ldCol harg6, ldCol harg7, ldSq harg8]; rfl
  isplitl [H7]
  · iexists _; isplitr
    swap; · iexact H7
    ipureintro; refine (read_writes_whole _ _ zeros2 _ _ _).trans ?_
    simp only [ldSq harg2, ldKV harg3, ldKV harg4, ldCol harg6, ldCol harg7, ldSq harg8]; rfl
  iexists _; isplitr
  swap; · iexact H8
  ipureintro; refine (read_writes_whole _ _ zeros2 _ _ _).trans ?_
  simp only [ldSq harg2, ldKV harg3, ldKV harg4, ldCol harg6, ldCol harg7, ldSq harg8]; rfl

variable (V : (c : Dev nD) → (b : Ref sig .tc) → Buf (Elt F) ((c : Thread nD τ).loc b))

/-! ## The region invariant

Between points the core holds, besides the windows' staging buffers, its other scoped buffers: the eleven staging
buffers of the first call, which this call never touches, and the three scratch buffers. Before the first point the
scratch holds anything; after position `n` it holds the streaming state `flashAt V c n`. -/

/-- The first call's eleven staging buffers, each whole at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- What the launch hands the region, with the scratch buffers as memrefs owned at some contents. -/
theorem PhiA1_eq (c : Dev nD) :
    (Pipeline.ΦA spec1 c : sProp 𝕄)
      = iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r)) := by
  have h₁ : (Pipeline.ΦA spec1 c : sProp 𝕄)
      ⊢ iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r)) := by
    unfold Pipeline.ΦA others1; rw [scopedRest1_eq]; simp only [scM, scL, scA, owns_whole]
    iintro ⟨⟨H1, H2, H3, H4, H5, H6, H7, H8, H9, H10, H11, HS0, HS1, HS2⟩, Hg⟩
    iframe
  have h₂ : iprop(iprop(others1 (F := F) c ∗ (∃ d, owns (c : Thread nD τ) scM fullShare d) ∗ (∃ d, owns (c : Thread nD τ) scL fullShare d)
          ∗ (∃ d, owns (c : Thread nD τ) scA fullShare d)) ∗ (∃ r, prngReg c r))
      ⊢ (Pipeline.ΦA spec1 c : sProp 𝕄) := by
    unfold Pipeline.ΦA others1; rw [scopedRest1_eq]; simp only [scM, scL, scA, owns_whole]
    iintro ⟨⟨⟨H1, H2, H3, H4, H5, H6, H7, H8, H9, H10, H11⟩, HS0, HS1, HS2⟩, Hg⟩
    iframe
  exact BI.equiv_iff.mp ⟨h₁, h₂⟩

/-- The invariant before position `n`: before the first point what the launch hands over; afterwards the scratch at the
    state the point before left — maximum, denominator, numerator —, the other scoped buffers at anything, the generator
    register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM fullShare (flashAt V c n hn).m
      ∗ owns (c : Thread nD τ) scL fullShare (flashAt V c n hn).l
      ∗ owns (c : Thread nD τ) scA fullShare (flashAt V c n hn).a) ∗ (∃ r, prngReg c r))

theorem PhiS1_zero (c : Dev nD) (n : ℕ) (h : n ≤ cfg1.N) (hz : n = 0) : PhiS1 V c n h = Pipeline.ΦA spec1 c := by
  subst hz; rfl

/-- After point `n`: the scratch at that point's state. -/
theorem PhiS1_succ (c : Dev nD) (n : ℕ) (hn : n < cfg1.N) :
    PhiS1 V c (n + 1) hn = iprop(iprop(others1 (F := F) c ∗ owns (c : Thread nD τ) scM fullShare (flashAt V c n hn).m
      ∗ owns (c : Thread nD τ) scL fullShare (flashAt V c n hn).l
      ∗ owns (c : Thread nD τ) scA fullShare (flashAt V c n hn).a) ∗ (∃ r, prngReg c r)) := rfl

/-- Before a point that is not the first: the scratch at the state the point before left. -/
theorem PhiS1_pos (c : Dev nD) (n : ℕ) (h : n ≤ cfg1.N) (hz : n ≠ 0) :
    PhiS1 V c n h = iprop(iprop(others1 (F := F) c ∗ owns (c : Thread nD τ) scM fullShare (flashAt V c (n - 1) (by omega)).m
      ∗ owns (c : Thread nD τ) scL fullShare (flashAt V c (n - 1) (by omega)).l
      ∗ owns (c : Thread nD τ) scA fullShare (flashAt V c (n - 1) (by omega)).a) ∗ (∃ r, prngReg c r)) := by
  cases n with
  | zero => exact absurd rfl hz
  | succ n => rfl

/-! ## The proof data -/

/-- The region's proof data on core `c`: the arrays as the region finds them; after the body at point `t` each input's
    buffer at its block and the output's at the normalised state of that point (consulted only at a query block's last
    point, the window being idle elsewhere); the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (flashAt V c t.val t.isLt).out
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (flashAt V c t.val t.isLt).out := by dsimp only [dat1]

/-- Each input's current staging buffer holds its block at every point, fetched there or not: the body leaves the block
    in place, and where the pipeline does not fetch, the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point. The inputs' memrefs hold the point's blocks. The point's position modulo 8 says which case it
    is in. At a query block's first point the invariant hands the scratch over at anything (at the grid's first point)
    or at a state that is discarded (later), and the state after the point is the update of the fresh state; at the other
    points it hands the scratch over at the state the point before left, and the state after the point is its update.
    Only at a query block's last point is the output window live, and there it is left at the normalised new state;
    elsewhere its buffer goes back as it came. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [flashAt_eq V c t]
  have hN : t.val < 32 := lt_of_lt_of_eq t.isLt (show cfg1.N = 32 from N_1)
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [show flashBefore V c t = St.init from dif_pos h0]
    by_cases hz : t.val = 0
    · rw [PhiS1_castSucc V c t, PhiS1_zero V c _ _ hz, PhiA1_eq]
      iintro ⟨⟨⟨HR, HS0, HS1, HS2⟩, Hg⟩, Ho, ⟨%d0, H0⟩, ⟨%d1, H1⟩, ⟨%d2, H2⟩, ⟨%d3, H3⟩⟩
      iapply (run1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HR, HS0, HS1, HS2⟩, Hg⟩, Ho, ⟨%d0, H0⟩, ⟨%d1, H1⟩, ⟨%d2, H2⟩, ⟨%d3, H3⟩⟩
      iapply (run1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [show flashBefore V c t = flashAt V c (t.val - 1) (Nat.lt_of_le_of_lt (Nat.sub_le _ _) t.isLt) from dif_neg h0]
    rw [PhiS1_castSucc V c t, PhiS1_pos V c _ _ hz]
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, flashAt_eq V c t]
      rw [show flashBefore V c t = flashAt V c (t.val - 1) (Nat.lt_of_le_of_lt (Nat.sub_le _ _) t.isLt) from dif_neg h0]
      iintro ⟨⟨⟨HR, HS0, HS1, HS2⟩, Hg⟩, Ho, ⟨%d0, H0⟩, ⟨%d1, H1⟩, ⟨%d2, H2⟩, ⟨%d3, H3⟩⟩
      iapply (run1_C c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HR, HS0, HS1, HS2⟩, Hg⟩, Ho, ⟨%d0, H0⟩, ⟨%d1, H1⟩, ⟨%d2, H2⟩, ⟨%d3, H3⟩⟩
      iapply (run1_B c (grid1.coords t) _ _ _ _ _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HR HS0 HS1 HS2 Hg]
      · isplitr [Hg]
        · isplitl [HR]; · iexact HR
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the scratch's named state is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2⟩, Hg⟩
  isplitr [Hg]
  · isplitl [HR]; · iexact HR
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Flash

end
-- ==== Proof.KI.Run.lean ====
/-
  The run of the whole program, at any float instance.

  @main is three items: one host operation (the value weights narrowed to bf16), the projection kernel, the attention
  kernel.  Between items the core holds every unscoped buffer whole, at contents that are a fold through the items: the
  launch memory; after the host operation; after the projection kernel (its three output arrays at what its write-backs
  leave, everything else as before); after the attention kernel (its output array likewise).  Each kernel is entered from
  the contents before it and left at the contents after it; the generator register and the fact that the core owes
  nothing ride along.  The run's post reads EVERY unscoped buffer at the last contents, so it gives both the frame
  (no item writes an argument) and the result array's value.
-/
import proofs.«171237_j90855738180064_2_alg».proof.Proof.KI.Region0
import proofs.«171237_j90855738180064_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- Core `c`'s buffers at launch. -/
abbrev W0 : Dev nD → Valuation τ sig (Elt F) := fun c b => m (c, b)
/-- After the host operation (the projection kernel's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the projection kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the attention kernel's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention kernel: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

/-- The host operation writes only its own result buffer. -/
theorem W1_of_ne (c : Dev nD) (b : Ref sig .tc) (hb : b ≠ main_v0) :
    W1 m c (Proc.devRef .tc b) = W0 m c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of_ne m c main_arg0 (by decide)
    _ = m ((c : Thread nD τ).loc main_arg0) := rfl
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of_ne m c main_arg1 (by decide)
    _ = m ((c : Thread nD τ).loc main_arg1) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of_ne m c main_arg2 (by decide)
    _ = m ((c : Thread nD τ).loc main_arg2) := rfl
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-- The result array ends at what the attention kernel's write-backs leave. -/
theorem W3_main_v2 (c : Dev nD) : W3 m c (Proc.devRef .tc main_v2) = (dat1 (V2 m) c).arrAt 3 cfg1.N := W3_arr m c 3

/-! ## The proof data family and the thread state -/

/-- No pipeline has a prefetched table. -/
abbrev adm : (p : Fin 2) → (pcfgs (F := F) p).Adm := fun p => (cfgs p).toPCfg_adm
/-- Each pipeline's proof data at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

/-- The host operation as a segment over the unscoped buffers from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The projection kernel over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `W2`, left at `W3`.  Its invariant
    starts as the plain one (every scoped buffer at anything, the generator register) and ends giving it back: what the
    scratch buffers hold in between is the kernel's own business. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine .trans (hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

/-- THE RUN WITH THE RESULT NAMED: the result array ends at what the attention kernel's write-backs leave, the arguments
    as launched. -/
theorem run_value : θ_run defs (onTc (τ := τ) (main (F := F))) ⟨m, fun _ => 0, ρ⟩ (fun r => ∀ c : Dev nD,
      r.2.mem ((c.tc : Thread nD τ).loc main_v2) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩) (run_main m ρ)

end Cert.KernelIdeal.Flash

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibRealEntries.lean ====
/-
  Arrays of extended reals all of whose entries are real numbers.

  The property passes through everything a chain of dense layers is made of: reading an array at
  re-arranged indices (transposes, slices, reshapes, broadcasts are all of the form j ↦ x (f j)), entrywise
  sums, and a dot_general, whose entry is a finite sum of products of entries.  It is what a precondition
  "every input is finite" gives for the inputs: an entry whose absolute value is below +∞ is neither +∞ nor −∞.
-/
import Idealize.ShloMosaic.PureOps.Ideal.Laws
import Idealize.ShloMosaic.Lib.ReduceAll
import Idealize.ShloMosaic.Lib.ValueIdx

noncomputable section

namespace RealEntries

open Idealize.ShloMosaic

/-- Every entry of the array is a real number (neither infinity). -/
def IsReal {ι : Type} (v : ι → EReal) : Prop := ∀ i, ∃ r : ℝ, v i = (r : EReal)

/-- Reading a real-valued array at re-arranged indices gives a real-valued array. -/
theorem IsReal.comp {ι κ : Type} {v : ι → EReal} (h : IsReal v) (f : κ → ι) : IsReal (fun j => v (f j)) :=
  fun j => h (f j)

/-- The entrywise sum of two real-valued arrays is real-valued. -/
theorem IsReal.add {ι : Type} {v w : ι → EReal} (hv : IsReal v) (hw : IsReal w) : IsReal (fun i => v i + w i) := fun i => by
  obtain ⟨a, ha⟩ := hv i
  obtain ⟨b, hb⟩ := hw i
  exact ⟨a + b, by show v i + w i = _; rw [ha, hb, EReal.coe_add]⟩

/-- A finite sum of real numbers read in the extended reals is a real number. -/
theorem exists_real_sum {κ : Type} (s : Finset κ) (f : κ → EReal) (h : ∀ k, ∃ r : ℝ, f k = (r : EReal)) :
    ∃ r : ℝ, ∑ k ∈ s, f k = (r : EReal) := by
  classical
  refine Finset.induction_on s ⟨0, by simp⟩ ?_
  intro a s ha ⟨r, hr⟩
  obtain ⟨b, hb⟩ := h a
  exact ⟨b + r, by rw [Finset.sum_insert ha, hr, hb, EReal.coe_add]⟩

/-- An array whose entry at i is a finite sum over k of products of entries of two real-valued arrays is real-valued. -/
theorem isReal_sum_mul {ι κ α β : Type} [Fintype κ] {l : α → EReal} {r : β → EReal} (hl : IsReal l) (hr : IsReal r)
    (f : ι → κ → α) (g : ι → κ → β) : IsReal (fun i => ∑ k, l (f i k) * r (g i k)) := fun i =>
  exists_real_sum _ _ fun k => by
    obtain ⟨a, ha⟩ := hl (f i k)
    obtain ⟨b, hb⟩ := hr (g i k)
    exact ⟨a * b, by show l (f i k) * r (g i k) = _; rw [ha, hb, EReal.coe_mul]⟩

variable {s t : Shape} {φ : FTy}

theorem IsReal.addf {v w : FVec Ideal s φ} (hv : IsReal v) (hw : IsReal w) : IsReal (addf v w) := hv.add hw

theorem IsReal.transpose {v : s.Idx → EReal} (hv : IsReal v) (perm : List (Fin s.rank)) (h : s.Transposes perm t) :
    IsReal (transpose t perm v h) := fun j => hv _

theorem IsReal.broadcastInDim {v : s.Idx → EReal} (hv : IsReal v) (dims : Fin s.rank → Fin t.rank) (h : s.BroadcastsInDim t dims) :
    IsReal (broadcastInDim t dims h v) := fun j => hv _

theorem IsReal.extractStridedSlice {v : s.Idx → EReal} (hv : IsReal v) (off : Fin s.rank → Nat) (h : s.Slices off t) :
    IsReal (extractStridedSlice t off v h) := fun j => hv _

theorem IsReal.shapeCast {v : s.Idx → EReal} (hv : IsReal v) (h : s.ShapeCasts t) : IsReal (shapeCast t v h) := fun j => hv _

/-- The host's dot_general of two real-valued arrays is real-valued: each entry is the sum, over the contracted
    index set, of products of entries. -/
theorem IsReal.dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r : FVec Ideal so φ₁) := fun j => by
  simp only [Host.dotGeneral]
  rw [Ideal.dotGeneral_apply]
  exact isReal_sum_mul hl hr (fun j k => d.lhsIdx j k) (fun j k => d.rhsIdx j k) j

/-- An extended real whose absolute value is below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One conjunct of a "finite inputs" precondition: where the reduction by `and` of the entrywise comparison
    |x| < +∞ (the word 0x7F800000 broadcast from a scalar) is 1, every entry of x is a real number. -/
theorem isReal_of_all_lt_inf {axes : List (Fin s.rank)} {u : Shape} [Subsingleton t.Idx] (x : FVec Ideal s .f32)
    (bound : FVec Ideal s .f32) (hb : ∀ i, bound i = Ideal.ofBits .f32 0x7F800000#32)
    (init : u.Idx → BitVec 1) (h : s.ReducesTo axes t) (hu : 0 < u.numel) (j : t.Idx)
    (e : Host.reduce IntOp.andi (cmpf .olt (Host.absf x) bound) init h hu j = 1#1) : IsReal x := fun i => by
  have hi := Host.reduce_andi_all _ init h hu j e i
  have htop : Ideal.ofBits .f32 0x7F800000#32 = ⊤ := by simp [Ideal.ofBits, Ideal.ieee]
  rw [ValueIdx.cmpf_apply, hb i, htop] at hi
  apply exists_real_of_abs_lt_top
  have h2 : Ideal.cmp .olt (max (x i) (-(x i))) ⊤ = 1#1 := hi
  by_contra hne
  simp [Ideal.cmp, hne] at h2

end RealEntries

end
-- ==== Proof.KI.ProjPayload.lean ====
/-
  The projection kernel's three payloads, read at an index, at the extended reals.

  Each operand t of the query and key projections is split as t and t − t (at the extended reals a change of float format
  is the identity, so the "leading part" is t itself and the "residual" is t − t), and three of the four cross products
  are added.  When every entry of the block of rows x and of the weight matrix w is a REAL number, t − t = 0, a product
  with 0 is 0, and the two correction products vanish: the query projection at (p, q) is (∑ k, x[p,k] · w[k,q]) times
  the scale word, the key projection the plain sum.  (Finiteness is needed: ⊤ − ⊤ is not 0.)  The value projection is one
  product and needs no hypothesis.
-/
import proofs.«171237_j90855738180064_2_alg».proof.Proof.KI.Data
import proofs.«171237_j90855738180064_2_alg».proof.Proof.LibOneAxisDot
import proofs.«171237_j90855738180064_2_alg».proof.Proof.LibRealEntries
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.ProjPayload

open Idealize.ShloMosaic Idealize.ShloMosaic.ValueIdx RealEntries
open Cert.KernelIdeal Cert.KernelIdeal.Gen Cert.KernelIdeal.Flash Cert.Lib.OneAxisDot

/-- The projection's dimension numbers: rows of the left operand against columns of the right. -/
abbrev D0 : DotDims S256x1024 S1024x1024 S256x1024 := dot_S256x1024_S1024x1024_S256x1024_1_0_0_1_n_n

/-- A real number minus itself is zero, also when read in the extended reals. -/
theorem sub_self_of_real {x : EReal} (h : ∃ r : ℝ, x = (r : EReal)) : x - x = 0 := by
  obtain ⟨r, rfl⟩ := h
  rw [← EReal.coe_sub, sub_self, EReal.coe_zero]

/-- At output index (p, q) and contraction index k the left operand is read at (p, k). -/
theorem lhsD0 (p : Fin 256) (q k : Fin 1024) :
    D0.lhsIdx (ix2 p q) ((contrEquiv1 D0 1024 rfl rfl).symm k) = ix2 p k := by
  funext a; apply Fin.ext
  match a with
  | ⟨0, _⟩ =>
    show (D0.lhsIdx (ix2 p q) ((contrEquiv1 D0 1024 rfl rfl).symm k) 0).val = p.val
    unfold DotDims.lhsIdx
    rw [dif_neg (show ¬(0 : Fin S256x1024.rank) ∈ D0.lhsBatch by decide), dif_pos (show (0 : Fin S256x1024.rank) ∈ D0.lhsNonContracting by decide)]
    rfl
  | ⟨1, _⟩ => exact (D0.lhsIdx_val_of_single rfl _ _).trans (contrEquiv1_symm_val D0 1024 rfl rfl k)

/-- … and the right operand at (k, q). -/
theorem rhsD0 (p : Fin 256) (q k : Fin 1024) :
    D0.rhsIdx (ix2 p q) ((contrEquiv1 D0 1024 rfl rfl).symm k) = ix2 k q := by
  funext a; apply Fin.ext
  match a with
  | ⟨0, _⟩ => exact (D0.rhsIdx_val_of_single rfl _ _).trans (contrEquiv1_symm_val D0 1024 rfl rfl k)
  | ⟨1, _⟩ =>
    show (D0.rhsIdx (ix2 p q) ((contrEquiv1 D0 1024 rfl rfl).symm k) 1).val = q.val
    unfold DotDims.rhsIdx
    rw [dif_neg (show ¬(1 : Fin S1024x1024.rank) ∈ D0.rhsBatch by decide), dif_pos (show (1 : Fin S1024x1024.rank) ∈ D0.rhsNonContracting by decide)]
    rfl

/-- One product into the zero accumulator, at (p, q): the sum over k of left[p,k] · right[k,q]. -/
theorem prod_apply {φ₁ φ₂ : FTy} (l : FVec Ideal S256x1024 φ₁) (r : FVec Ideal S1024x1024 φ₂) (p : Fin 256) (q : Fin 1024) :
    matmul D0 none l r (constant S256x1024 .f32 0x00000000#32) (ix2 p q) = ∑ k : Fin 1024, l (ix2 p k) * r (ix2 k q) :=
  matmul_zero_apply_at D0 1024 rfl rfl none l r (ix2 p q) (fun k => ix2 p k) (fun k => ix2 k q) (lhsD0 p q) (rhsD0 p q)

/-- The three-product sum of the split operands is the plain product when the entries are real. -/
theorem split_prod (x : Vec Ideal S256x1024 .f32) (w : Vec Ideal S1024x1024 .f32) (hx : IsReal x) (hw : IsReal w)
    (p : Fin 256) (q : Fin 1024) :
    ((∑ k : Fin 1024, x (ix2 p k) * w (ix2 k q)) + ∑ k : Fin 1024, x (ix2 p k) * (w (ix2 k q) - w (ix2 k q)))
      + ∑ k : Fin 1024, (x (ix2 p k) - x (ix2 p k)) * w (ix2 k q)
    = ∑ k : Fin 1024, x (ix2 p k) * w (ix2 k q) := by
  have h2 : ∑ k : Fin 1024, x (ix2 p k) * (w (ix2 k q) - w (ix2 k q)) = 0 :=
    Finset.sum_eq_zero fun k _ => by rw [sub_self_of_real (hw _), mul_zero]
  have h3 : ∑ k : Fin 1024, (x (ix2 p k) - x (ix2 p k)) * w (ix2 k q) = 0 :=
    Finset.sum_eq_zero fun k _ => by rw [sub_self_of_real (hx _), zero_mul]
  rw [h2, h3, add_zero, add_zero]

/-- The key projection of a real block against real weights, at (p, q). -/
theorem projK_apply (x : Vec Ideal S256x1024 .f32) (w : Vec Ideal S1024x1024 .f32) (hx : IsReal x) (hw : IsReal w)
    (p : Fin 256) (q : Fin 1024) :
    projK x w (ix2 p q) = ∑ k : Fin 1024, x (ix2 p k) * w (ix2 k q) := by
  unfold projK k0_pay4 k0_pay1 k0_pay2
  dsimp only
  rw [addf_apply, addf_apply, prod_apply, prod_apply, prod_apply]
  simp only [truncf_apply, subf_apply]
  exact split_prod x w hx hw p q

/-- The scale the query projection is multiplied by, as a word. -/
abbrev scaleWord : Ideal .f32 := Scalar.ofBits (F := Ideal) .f32 0x3D000000#32

/-- The query projection of a real block against real weights, at (p, q): the plain sum times the scale. -/
theorem projQ_apply (x : Vec Ideal S256x1024 .f32) (w : Vec Ideal S1024x1024 .f32) (hx : IsReal x) (hw : IsReal w)
    (p : Fin 256) (q : Fin 1024) :
    projQ x w (ix2 p q) = (∑ k : Fin 1024, x (ix2 p k) * w (ix2 k q)) * scaleWord := by
  unfold projQ k0_pay3 k0_pay1 k0_pay2
  dsimp only
  rw [mulf_apply, addf_apply, addf_apply, prod_apply, prod_apply, prod_apply, broadcast_apply]
  simp only [truncf_apply, subf_apply]
  rw [split_prod x w hx hw p q]

/-- The value projection, at (p, q): one product, no hypothesis. -/
theorem projV_apply (x : Vec Ideal S256x1024 .f32) (w : Vec Ideal S1024x1024 .bf16) (p : Fin 256) (q : Fin 1024) :
    projV x w (ix2 p q) = ∑ k : Fin 1024, x (ix2 p k) * w (ix2 k q) := by
  unfold projV k0_pay5
  rw [truncf_apply, prod_apply]
  simp only [truncf_apply, shapeCast_self]

end Cert.KernelIdeal.ProjPayload

end
-- ==== Proof.KI.ProjArrays.lean ====
/-
  Region 0's three output arrays after all 16 points, as whole-array functions of the arrays the region reads,
  at the extended reals.

  Point `t` of the region holds rows `256 t … 256 t + 255` of `x` and the whole of each weight matrix, and writes back rows
  `256 t … 256 t + 255` of each output.  Entry (p, q) of a block's projection is a sum over k of x-block[p, k] · W[k, q];
  entry p of the block is row 256 t + p of the array, so the written block is the block of ONE function of the array's
  index: i ↦ ∑ k, x[row i, k] · W[k, col i] (times the scale for the query projection).  The 16 row blocks tile the 4096
  rows — row r is in block r / 256 — so each output array ends holding that function everywhere.

  The query and key projections split their operands into a leading part and a residual; at the extended reals the
  residual of a REAL number is zero, which is why those two ask that the entries of `x` and of the weights be real.
-/
import proofs.«171237_j90855738180064_2_alg».proof.Proof.KI.Region0
import proofs.«171237_j90855738180064_2_alg».proof.Proof.KI.ProjPayload
import proofs.«171237_j90855738180064_2_alg».proof.Proof.LibRealEntries
import Idealize.ShloMosaic.Lib.Pipeline.Value
import Idealize.ShloMosaic.Lib.ValueIdx

set_option maxRecDepth 16384

noncomputable section

open scoped BigOperators

namespace Cert.KernelIdeal.ProjArrays

open Idealize.ShloMosaic Idealize.ShloMosaic.TcCoe Idealize.ShloMosaic.ValueIdx RealEntries
open Idealize.SL Idealize.SL.Sem
open Idealize.ShloMosaic.Pipeline (Dat Cfg Window)
open Cert.KernelIdeal Cert.KernelIdeal.Gen Cert.KernelIdeal.Flash

variable (V : (c : Dev nD) → (b : Ref sig .tc) → Buf (Elt Ideal) ((c : Thread nD τ).loc b)) (c : Dev nD)

/-- The row and the column of an index of a 4096 x 1024 array. -/
def rowOf (i : S4096x1024.Idx) : Fin 4096 := ⟨(i 0).val, (i 0).isLt⟩
def colOf (i : S4096x1024.Idx) : Fin 1024 := ⟨(i 1).val, (i 1).isLt⟩

/-! ## One block of a projection is the block of a function of the array index -/

/-- The sum defining entry (p, q) of a block's projection, when the block `x` is rows `256 n + p` of an array `X` (read
    through `ex`), the weights `w` are an array `W` read in place (through `ew`), and the entry lands at array index `o`
    with row `256 n + p` and column `q`: it is the sum over k of X[row o, k] · W[k, col o]. -/
theorem sum_block (x : S256x1024.Idx → EReal) (w : S1024x1024.Idx → EReal)
    (X : S4096x1024.Idx → EReal) (W : S1024x1024.Idx → EReal)
    (ex : S256x1024.Idx → S4096x1024.Idx) (ew : S1024x1024.Idx → S1024x1024.Idx)
    (hx : ∀ y, x y = X (ex y)) (hw : ∀ y, w y = W (ew y)) (n : Nat)
    (hex0 : ∀ (p : Fin 256) (k : Fin 1024), (ex (ix2 p k) 0).val = n * 256 + p.val)
    (hex1 : ∀ (p : Fin 256) (k : Fin 1024), (ex (ix2 p k) 1).val = k.val)
    (hew0 : ∀ (k q : Fin 1024), (ew (ix2 k q) 0).val = k.val)
    (hew1 : ∀ (k q : Fin 1024), (ew (ix2 k q) 1).val = q.val)
    (p : Fin 256) (q : Fin 1024) (o : S4096x1024.Idx) (ho0 : (o 0).val = n * 256 + p.val) (ho1 : (o 1).val = q.val) :
    ∑ k : Fin 1024, x (ix2 p k) * w (ix2 k q) = ∑ k : Fin 1024, X (ix2 (rowOf o) k) * W (ix2 k (colOf o)) := by
  refine Finset.sum_congr rfl fun k _ => ?_
  rw [hx, hw]
  have e1 : ex (ix2 p k) = ix2 (rowOf o) k := by
    funext a; apply Fin.ext
    match a with
    | ⟨0, _⟩ => show (ex (ix2 p k) 0).val = (o 0).val; rw [hex0, ho0]
    | ⟨1, _⟩ => show (ex (ix2 p k) 1).val = k.val; rw [hex1]
  have e2 : ew (ix2 k q) = ix2 k (colOf o) := by
    funext a; apply Fin.ext
    match a with
    | ⟨0, _⟩ => show (ew (ix2 k q) 0).val = k.val; rw [hew0]
    | ⟨1, _⟩ => show (ew (ix2 k q) 1).val = (o 1).val; rw [hew1, ho1]
  rw [e1, e2]

/-! ## The index maps, over the grid -/

/-- Point `t`'s block of rows is block `t` along the rows, for `x` and for the three outputs; the weights' block is
    always the one whole block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## What each point writes back -/

/-- The product of a 4096 x 1024 array and a 1024 x 1024 array, entry by entry, and the same scaled: what the key and
    value projections, and the query projection, of the whole arrays are. -/
abbrev matProd (X : S4096x1024.Idx → EReal) (W : S1024x1024.Idx → EReal) : S4096x1024.Idx → EReal :=
  fun i => ∑ k : Fin 1024, X (ix2 (rowOf i) k) * W (ix2 k (colOf i))
abbrev matProdScaled (X : S4096x1024.Idx → EReal) (W : S1024x1024.Idx → EReal) : S4096x1024.Idx → EReal :=
  fun i => (∑ k : Fin 1024, X (ix2 (rowOf i) k) * W (ix2 k (colOf i))) * ProjPayload.scaleWord

/-- Point `t` writes back block `t` of the scaled query projection of the arrays. -/
theorem flushedQ_eq (hx : IsReal (V c main_arg0 : S4096x1024.Idx → EReal)) (hw : IsReal (V c main_arg1 : S1024x1024.Idx → EReal))
    (t : Fin cfg0.N) :
    (dat0 V c).flushed 4 t = ((cfg0.win 4).blk t).view.read (Elt Ideal) (matProdScaled (V c main_arg0) (V c main_arg1)) := by
  show (cfg0.win 4).cut (grid0.coords t) ((dat0 V c).after 4 t) = _
  rw [after0_4]
  obtain ⟨e00, e01, e10, e11, e20, e21, e30, e31, e40, e41, e50, e51, e60, e61⟩ := idx_facts t
  funext j
  obtain ⟨p, q, rfl⟩ : ∃ (p : Fin 256) (q : Fin 1024), j = ix2 p q := ⟨j 0, j 1, eq_ix2 j⟩
  refine (ProjPayload.projQ_apply (iblk0 V c 0 t) (iblk0 V c 1 t)
    (fun y => hx (((cfg0.win 0).blk t).view.emb y)) (fun y => hw (((cfg0.win 1).blk t).view.emb y)) p q).trans ?_
  show _ = matProdScaled (V c main_arg0) (V c main_arg1) (((cfg0.win 4).blk t).view.emb (ix2 p q))
  congr 1
  exact sum_block (iblk0 V c 0 t) (iblk0 V c 1 t) (V c main_arg0) (V c main_arg1)
    (fun y => ((cfg0.win 0).blk t).view.emb y) (fun y => ((cfg0.win 1).blk t).view.emb y)
    (fun y => rfl) (fun y => rfl) t.val
    (fun p k => by show win0_0.index t (0 : Fin 2) * 256 + 1 * p.val = _; rw [e00]; omega)
    (fun p k => by show win0_0.index t (1 : Fin 2) * 1024 + 1 * k.val = _; rw [e01]; omega)
    (fun k q => by show win0_1.index t (0 : Fin 2) * 1024 + 1 * k.val = _; rw [e10]; omega)
    (fun k q => by show win0_1.index t (1 : Fin 2) * 1024 + 1 * q.val = _; rw [e11]; omega)
    p q _
    (by show win0_4.index t (0 : Fin 2) * 256 + 1 * p.val = _; rw [e40]; omega)
    (by show win0_4.index t (1 : Fin 2) * 1024 + 1 * q.val = _; rw [e41]; omega)

/-- Point `t` writes back block `t` of the key projection of the arrays. -/
theorem flushedK_eq (hx : IsReal (V c main_arg0 : S4096x1024.Idx → EReal)) (hw : IsReal (V c main_arg2 : S1024x1024.Idx → EReal))
    (t : Fin cfg0.N) :
    (dat0 V c).flushed 5 t = ((cfg0.win 5).blk t).view.read (Elt Ideal) (matProd (V c main_arg0) (V c main_arg2)) := by
  show (cfg0.win 5).cut (grid0.coords t) ((dat0 V c).after 5 t) = _
  rw [after0_5]
  obtain ⟨e00, e01, e10, e11, e20, e21, e30, e31, e40, e41, e50, e51, e60, e61⟩ := idx_facts t
  funext j
  obtain ⟨p, q, rfl⟩ : ∃ (p : Fin 256) (q : Fin 1024), j = ix2 p q := ⟨j 0, j 1, eq_ix2 j⟩
  refine (ProjPayload.projK_apply (iblk0 V c 0 t) (iblk0 V c 2 t)
    (fun y => hx (((cfg0.win 0).blk t).view.emb y)) (fun y => hw (((cfg0.win 2).blk t).view.emb y)) p q).trans ?_
  show _ = matProd (V c main_arg0) (V c main_arg2) (((cfg0.win 5).blk t).view.emb (ix2 p q))
  exact sum_block (iblk0 V c 0 t) (iblk0 V c 2 t) (V c main_arg0) (V c main_arg2)
    (fun y => ((cfg0.win 0).blk t).view.emb y) (fun y => ((cfg0.win 2).blk t).view.emb y)
    (fun y => rfl) (fun y => rfl) t.val
    (fun p k => by show win0_0.index t (0 : Fin 2) * 256 + 1 * p.val = _; rw [e00]; omega)
    (fun p k => by show win0_0.index t (1 : Fin 2) * 1024 + 1 * k.val = _; rw [e01]; omega)
    (fun k q => by show win0_2.index t (0 : Fin 2) * 1024 + 1 * k.val = _; rw [e20]; omega)
    (fun k q => by show win0_2.index t (1 : Fin 2) * 1024 + 1 * q.val = _; rw [e21]; omega)
    p q _
    (by show win0_5.index t (0 : Fin 2) * 256 + 1 * p.val = _; rw [e50]; omega)
    (by show win0_5.index t (1 : Fin 2) * 1024 + 1 * q.val = _; rw [e51]; omega)

/-- Point `t` writes back block `t` of the value projection of the arrays (no hypothesis: one product, nothing split). -/
theorem flushedV_eq (t : Fin cfg0.N) :
    (dat0 V c).flushed 6 t = ((cfg0.win 6).blk t).view.read (Elt Ideal) (matProd (V c main_arg0) (V c main_v0)) := by
  show (cfg0.win 6).cut (grid0.coords t) ((dat0 V c).after 6 t) = _
  rw [after0_6]
  obtain ⟨e00, e01, e10, e11, e20, e21, e30, e31, e40, e41, e50, e51, e60, e61⟩ := idx_facts t
  funext j
  obtain ⟨p, q, rfl⟩ : ∃ (p : Fin 256) (q : Fin 1024), j = ix2 p q := ⟨j 0, j 1, eq_ix2 j⟩
  refine (ProjPayload.projV_apply (iblk0 V c 0 t) (iblk0 V c 3 t) p q).trans ?_
  show _ = matProd (V c main_arg0) (V c main_v0) (((cfg0.win 6).blk t).view.emb (ix2 p q))
  exact sum_block (iblk0 V c 0 t) (iblk0 V c 3 t) (V c main_arg0) (V c main_v0)
    (fun y => ((cfg0.win 0).blk t).view.emb y) (fun y => ((cfg0.win 3).blk t).view.emb y)
    (fun y => rfl) (fun y => rfl) t.val
    (fun p k => by show win0_0.index t (0 : Fin 2) * 256 + 1 * p.val = _; rw [e00]; omega)
    (fun p k => by show win0_0.index t (1 : Fin 2) * 1024 + 1 * k.val = _; rw [e01]; omega)
    (fun k q => by show win0_3.index t (0 : Fin 2) * 1024 + 1 * k.val = _; rw [e30]; omega)
    (fun k q => by show win0_3.index t (1 : Fin 2) * 1024 + 1 * q.val = _; rw [e31]; omega)
    p q _
    (by show win0_6.index t (0 : Fin 2) * 256 + 1 * p.val = _; rw [e60]; omega)
    (by show win0_6.index t (1 : Fin 2) * 1024 + 1 * q.val = _; rw [e61]; omega)

/-! ## The 16 row blocks tile the array -/

/-- An index of an output array is in point `t`'s block iff each coordinate is in the block's range on its axis. -/
theorem mem_blk4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v1_0).slice (win0_4.rect t)).set ↔ _
  rw [View.set_slice_whole, Rect.mem_set_unit]
  exact Iff.rfl
theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v1_1).slice (win0_5.rect t)).set ↔ _
  rw [View.set_slice_whole, Rect.mem_set_unit]
  exact Iff.rfl
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v1_2).slice (win0_6.rect t)).set ↔ _
  rw [View.set_slice_whole, Rect.mem_set_unit]
  exact Iff.rfl

/-- The point whose block of rows holds row `r`: `r / 256`. -/
def pointOf (i : S4096x1024.Idx) : Fin cfg0.N :=
  ⟨(i 0).val / 256, by show _ < grid0.N; rw [N_0]; have := idx2_lt0 i; omega⟩

/-- Every index of an output array is in the block of the point of its row, and every point writes its block back. -/
theorem cover4 (i : S4096x1024.Idx) : ∃ t : Fin cfg0.N, (cfg0.win 4).flush t = true ∧ i ∈ ((cfg0.win 4).blk t).view.set := by
  refine ⟨pointOf i, flush0_4 _, ?_⟩
  obtain ⟨e00, e01, e10, e11, e20, e21, e30, e31, e40, e41, e50, e51, e60, e61⟩ := idx_facts (pointOf i)
  have ht : (pointOf i).val = (i 0).val / 256 := rfl
  have h0 := idx2_lt0 i
  have h1 := idx2_lt1 i
  rw [mem_blk4]
  intro a
  match a with
  | ⟨0, _⟩ => show win0_4.index (pointOf i) (0 : Fin 2) * 256 ≤ (i 0).val ∧ (i 0).val < win0_4.index (pointOf i) (0 : Fin 2) * 256 + 256; rw [e40, ht]; omega
  | ⟨1, _⟩ => show win0_4.index (pointOf i) (1 : Fin 2) * 1024 ≤ (i 1).val ∧ (i 1).val < win0_4.index (pointOf i) (1 : Fin 2) * 1024 + 1024; rw [e41]; omega
theorem cover5 (i : S4096x1024.Idx) : ∃ t : Fin cfg0.N, (cfg0.win 5).flush t = true ∧ i ∈ ((cfg0.win 5).blk t).view.set := by
  refine ⟨pointOf i, flush0_5 _, ?_⟩
  obtain ⟨e00, e01, e10, e11, e20, e21, e30, e31, e40, e41, e50, e51, e60, e61⟩ := idx_facts (pointOf i)
  have ht : (pointOf i).val = (i 0).val / 256 := rfl
  have h0 := idx2_lt0 i
  have h1 := idx2_lt1 i
  rw [mem_blk5]
  intro a
  match a with
  | ⟨0, _⟩ => show win0_5.index (pointOf i) (0 : Fin 2) * 256 ≤ (i 0).val ∧ (i 0).val < win0_5.index (pointOf i) (0 : Fin 2) * 256 + 256; rw [e50, ht]; omega
  | ⟨1, _⟩ => show win0_5.index (pointOf i) (1 : Fin 2) * 1024 ≤ (i 1).val ∧ (i 1).val < win0_5.index (pointOf i) (1 : Fin 2) * 1024 + 1024; rw [e51]; omega
theorem cover6 (i : S4096x1024.Idx) : ∃ t : Fin cfg0.N, (cfg0.win 6).flush t = true ∧ i ∈ ((cfg0.win 6).blk t).view.set := by
  refine ⟨pointOf i, flush0_6 _, ?_⟩
  obtain ⟨e00, e01, e10, e11, e20, e21, e30, e31, e40, e41, e50, e51, e60, e61⟩ := idx_facts (pointOf i)
  have ht : (pointOf i).val = (i 0).val / 256 := rfl
  have h0 := idx2_lt0 i
  have h1 := idx2_lt1 i
  rw [mem_blk6]
  intro a
  match a with
  | ⟨0, _⟩ => show win0_6.index (pointOf i) (0 : Fin 2) * 256 ≤ (i 0).val ∧ (i 0).val < win0_6.index (pointOf i) (0 : Fin 2) * 256 + 256; rw [e60, ht]; omega
  | ⟨1, _⟩ => show win0_6.index (pointOf i) (1 : Fin 2) * 1024 ≤ (i 1).val ∧ (i 1).val < win0_6.index (pointOf i) (1 : Fin 2) * 1024 + 1024; rw [e61]; omega

/-! ## The three output arrays after the region -/

/-- The query array: the product of `x` and the query weights, scaled. -/
theorem arrQ (hx : IsReal (V c main_arg0 : S4096x1024.Idx → EReal)) (hw : IsReal (V c main_arg1 : S1024x1024.Idx → EReal)) :
    (dat0 V c).arrAt 4 cfg0.N = matProdScaled (V c main_arg0) (V c main_arg1) :=
  (dat0 V c).arrAt_eq_of_cover 4 (matProdScaled (V c main_arg0) (V c main_arg1)) (fun t _ => flushedQ_eq V c hx hw t) cover4

/-- The key array: the product of `x` and the key weights. -/
theorem arrK (hx : IsReal (V c main_arg0 : S4096x1024.Idx → EReal)) (hw : IsReal (V c main_arg2 : S1024x1024.Idx → EReal)) :
    (dat0 V c).arrAt 5 cfg0.N = matProd (V c main_arg0) (V c main_arg2) :=
  (dat0 V c).arrAt_eq_of_cover 5 (matProd (V c main_arg0) (V c main_arg2)) (fun t _ => flushedK_eq V c hx hw t) cover5

/-- The value array: the product of `x` and the (already narrowed) value weights. -/
theorem arrV : (dat0 V c).arrAt 6 cfg0.N = matProd (V c main_arg0) (V c main_v0) :=
  (dat0 V c).arrAt_eq_of_cover 6 (matProd (V c main_arg0) (V c main_v0)) (fun t _ => flushedV_eq V c t) cover6

end Cert.KernelIdeal.ProjArrays

end
-- ==== Proof.KI.FlashArray.lean ====
/-
  The attention kernel's output array after the run, at any float instance.

  Output window 3 is written back only at the last point of each query block (points 7, 15, 23, 31), and point 8·qi + 7
  writes rows 1024·qi … 1024·qi + 1023 — the four blocks tile the array.  So the array ends holding, at row i and column d,
  the normalised streaming state (numerator over denominator) that the LAST point of query block i / 1024 leaves, read at
  row i % 1024 of the block.
-/
import proofs.«171237_j90855738180064_2_alg».proof.Proof.KI.Data
import Idealize.ShloMosaic.Lib.Pipeline.FrameBody
import Idealize.ShloMosaic.Lib.Pipeline.Value
import Idealize.ShloMosaic.Lib.ValueIdx

set_option maxRecDepth 16384

noncomputable section

namespace Cert.KernelIdeal.Flash

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The streaming state depends on the position only through its value. -/
theorem flashAt_congr (c : Dev nD) {n n' : ℕ} (e : n = n') (h : n < cfg1.N) (h' : n' < cfg1.N) :
    flashAt V c n h = flashAt V c n' h' := by subst e; rfl

/-- The state the last point of query block `qi` leaves. -/
def flashLast (c : Dev nD) (qi : ℕ) (h : qi < 4) : St F :=
  flashAt V c (8 * qi + 7) (by have : cfg1.N = 32 := N_1; omega)

/-- What the output array ends holding: at row i, column d, the normalised last state of query block i / 1024 at row i % 1024. -/
def attnArr (c : Dev nD) : S4096x1024.Idx → Elt F .f32 := fun i =>
  (flashLast V c ((i 0).val / 1024) (by have := (i 0).isLt; have h : (i 0).val < 4096 := this; omega)).out
    (ix2 (⟨(i 0).val % 1024, Nat.mod_lt _ (by decide)⟩ : Fin 1024) (⟨(i 1).val, (i 1).isLt⟩ : Fin 1024))

/-- The output window's index map over the grid: point t writes block row t / 8, block column 0. -/
theorem idx3 : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- What a flushing point writes back is its block of `attnArr`. -/
theorem flushed3_eq (c : Dev nD) (dat : Dat τ (Elt F) Unit ℕ (UR sig nD τ) ℕ cfg1 c)
    (hafter : ∀ t, dat.after 3 t = (flashAt V c t.val t.isLt).out)
    (t : Fin cfg1.N) (hf : (cfg1.win 3).flush t = true) :
    dat.flushed 3 t = ((cfg1.win 3).blk t).view.read (Elt F) (attnArr V c) := by
  have h7 : t.val % 8 = 7 := (flush1_3 t).mp hf
  have hN : t.val < 32 := lt_of_lt_of_eq t.isLt N_1
  obtain ⟨e0, e1⟩ := idx3 t
  show (cfg1.win 3).cut (grid1.coords t) (dat.after 3 t) = _
  rw [hafter]
  funext j
  show (flashAt V c t.val t.isLt).out j = attnArr V c (((cfg1.win 3).blk t).view.emb j)
  have hj0 : (j 0).val < 1024 := (j 0).isLt
  have hj1 : (j 1).val < 1024 := (j 1).isLt
  have hr : ((((cfg1.win 3).blk t).view.emb j) 0).val = t.val / 8 * 1024 + (j 0).val := by
    show win1_3.index t (0 : Fin 2) * 1024 + 1 * (j 0).val = _
    omega
  have hc : ((((cfg1.win 3).blk t).view.emb j) 1).val = (j 1).val := by
    show win1_3.index t (1 : Fin 2) * 1024 + 1 * (j 1).val = _
    omega
  unfold attnArr flashLast
  have hq : ((((cfg1.win 3).blk t).view.emb j) 0).val / 1024 = t.val / 8 := by rw [hr]; omega
  have hm : ((((cfg1.win 3).blk t).view.emb j) 0).val % 1024 = (j 0).val := by rw [hr]; omega
  have hst : flashAt V c t.val t.isLt
      = flashAt V c (8 * (((((cfg1.win 3).blk t).view.emb j) 0).val / 1024) + 7) (by have : cfg1.N = 32 := N_1; omega) :=
    flashAt_congr V c (by omega) _ _
  rw [← hst]
  refine congrArg (flashAt V c t.val t.isLt).out ?_
  funext a
  match a with
  | ⟨0, _⟩ => exact Fin.ext hm.symm
  | ⟨1, _⟩ => exact Fin.ext hc.symm

/-- An index of the array is in point `t`'s block iff each coordinate is in the block's range on its axis. -/
theorem mem_blk3 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- Every index is in the block of the last point of its query block, and that point writes back. -/
theorem cover3 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have ht : 8 * ((i 0).val / 1024) + 7 < cfg1.N := by
    show _ < grid1.N
    rw [N_1]; omega
  obtain ⟨e0, e1⟩ := idx3 ⟨8 * ((i 0).val / 1024) + 7, ht⟩
  have e0' : win1_3.index ⟨8 * ((i 0).val / 1024) + 7, ht⟩ (0 : Fin 2) = (8 * ((i 0).val / 1024) + 7) / 8 := e0
  refine ⟨⟨8 * ((i 0).val / 1024) + 7, ht⟩, (flush1_3 _).mpr (by show (8 * ((i 0).val / 1024) + 7) % 8 = 7; omega), ?_⟩
  rw [mem_blk3]
  intro a
  match a with
  | ⟨0, _⟩ =>
    show win1_3.index ⟨8 * ((i 0).val / 1024) + 7, ht⟩ (0 : Fin 2) * 1024 ≤ (i 0).val ∧ (i 0).val < win1_3.index ⟨8 * ((i 0).val / 1024) + 7, ht⟩ (0 : Fin 2) * 1024 + 1024
    omega
  | ⟨1, _⟩ =>
    show win1_3.index ⟨8 * ((i 0).val / 1024) + 7, ht⟩ (1 : Fin 2) * 1024 ≤ (i 1).val ∧ (i 1).val < win1_3.index ⟨8 * ((i 0).val / 1024) + 7, ht⟩ (1 : Fin 2) * 1024 + 1024
    omega

/-- THE OUTPUT ARRAY after the run, for any proof data whose output block after a point is the point's normalised state. -/
theorem arrAt3_eq (c : Dev nD) (dat : Dat τ (Elt F) Unit ℕ (UR sig nD τ) ℕ cfg1 c)
    (hafter : ∀ t, dat.after 3 t = (flashAt V c t.val t.isLt).out) :
    dat.arrAt 3 cfg1.N = attnArr V c :=
  dat.arrAt_eq_of_cover 3 (attnArr V c) (fun t hf => flushed3_eq V c dat hafter t hf) (cover3)

end Cert.KernelIdeal.Flash

end
-- ==== Proof.LibOnlineSoftmax.lean ====
import Idealize.ShloMosaic.PureOps.Ideal

/-!
# The online (streaming) softmax recurrence equals the one-shot softmax

For real logits `s : ℕ → ℝ` and real values `v : ℕ → ℝ`, read in the extended reals, define for a prefix
of length `n`

* `runMax s n`   — the maximum of the first `n` logits (`⊥` for `n = 0`),
* `runDen s n`   — `∑_{j<n} exp (s j - runMax s n)`, the softmax denominator relative to that maximum,
* `runNum s v n` — `∑_{j<n} exp (s j - runMax s n) * v j`, the unnormalised weighted sum.

Appending a block of `T` further logits updates the three quantities by the streaming rule

  `m' = max m (block maximum)`,
  `l' = exp (m - m') * l + ∑_block exp (s - m')`,
  `a' = exp (m - m') * a + ∑_block exp (s - m') * v`,

(`runMax_add`, `runDen_add`, `runNum_add`), uniformly in `n` and `T`: from the empty prefix the old maximum
is `⊥`, `exp (⊥ - m') = exp ⊥ = 0` and the old sums are `0`. Normalising the accumulated numerator once
at the end equals summing the normalised weights (`softmax_final`).

For a nonempty prefix every quantity is the coercion of a real number (`runMax_real`, `runDen_pos_real`,
`runNum_real`), and the identities are proved in `ℝ` (`exp (a + b) = exp a * exp b`, distributivity) and
transported along the coercion; the extended reals themselves are not distributive at the infinities.
-/

open Idealize.ShloMosaic
open scoped BigOperators

noncomputable section

namespace LibOnlineSoftmax

/-! ### The coercion `ℝ → EReal` and finite sums, the exponential of a difference of reals -/

/-- The coercion `ℝ → EReal` commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion `ℝ → EReal` commutes with `max`. -/
theorem coe_max (a b : ℝ) : ((max a b : ℝ) : EReal) = max (a : EReal) (b : EReal) :=
  EReal.coe_strictMono.monotone.map_max

/-- The extended exponential of a difference of two reals is the real exponential of the difference. -/
theorem exp_coe_sub (a b : ℝ) :
    Ideal.exp ((a : EReal) - (b : EReal)) = ((Real.exp (a - b) : ℝ) : EReal) := by
  rw [← EReal.coe_sub, Ideal.exp_coe]

/-! ### Suprema over `Fin T` and over `Finset.range T` -/

/-- A supremum over all of `Fin T` of a function of the underlying number is the supremum over
    `Finset.range T`. -/
theorem sup_univ_fin_eq_sup_range {α : Type*} [SemilatticeSup α] [OrderBot α] (T : ℕ) (f : ℕ → α) :
    (Finset.univ : Finset (Fin T)).sup (fun j => f j.val) = (Finset.range T).sup f := by
  refine le_antisymm (Finset.sup_le fun j _ => ?_) (Finset.sup_le fun j hj => ?_)
  · exact Finset.le_sup (f := f) (Finset.mem_range.2 j.isLt)
  · exact Finset.le_sup (f := fun j : Fin T => f j.val) (Finset.mem_univ ⟨j, Finset.mem_range.1 hj⟩)

/-- The indexed supremum `⨆ j : Fin T, f j` in a complete lattice is the supremum over `Finset.range T`. -/
theorem iSup_fin_eq_sup_range {α : Type*} [CompleteLattice α] (T : ℕ) (f : ℕ → α) :
    (⨆ j : Fin T, f j.val) = (Finset.range T).sup f :=
  (Finset.sup_univ_eq_iSup (fun j : Fin T => f j.val)).symm.trans (sup_univ_fin_eq_sup_range T f)

/-- The fold of `max` from `⊥` over all of `Fin T` (the form a maximum-reduction over one axis takes)
    is the supremum over `Finset.range T`. -/
theorem fold_max_bot_fin_eq_sup_range (T : ℕ) (f : ℕ → EReal) :
    (Finset.univ : Finset (Fin T)).fold max ⊥ (fun j => f j.val) = (Finset.range T).sup f :=
  sup_univ_fin_eq_sup_range T f

/-! ### The three running quantities -/

/-- The running maximum of the first `n` logits in the extended reals: `⊥` for `n = 0`. -/
def runMax (s : ℕ → ℝ) (n : ℕ) : EReal := (Finset.range n).sup fun j => ((s j : ℝ) : EReal)

/-- The running softmax denominator of the first `n` logits, relative to their maximum:
    `∑_{j<n} exp (s j - runMax s n)`. -/
def runDen (s : ℕ → ℝ) (n : ℕ) : EReal :=
  ∑ j ∈ Finset.range n, Ideal.exp ((s j : EReal) - runMax s n)

/-- The running unnormalised softmax-weighted sum of the first `n` values, relative to the maximum of the
    first `n` logits: `∑_{j<n} exp (s j - runMax s n) * v j`. -/
def runNum (s v : ℕ → ℝ) (n : ℕ) : EReal :=
  ∑ j ∈ Finset.range n, Ideal.exp ((s j : EReal) - runMax s n) * (v j : EReal)

/-- The maximum of no logits is `⊥`. -/
@[simp] theorem runMax_zero (s : ℕ → ℝ) : runMax s 0 = ⊥ := by
  simp [runMax]

/-- The denominator of no logits is `0`. -/
@[simp] theorem runDen_zero (s : ℕ → ℝ) : runDen s 0 = 0 := by
  simp [runDen]

/-- The weighted sum of no values is `0`. -/
@[simp] theorem runNum_zero (s v : ℕ → ℝ) : runNum s v 0 = 0 := by
  simp [runNum]

/-- One more logit: the new maximum is the maximum of the old one and the new logit. -/
theorem runMax_succ (s : ℕ → ℝ) (n : ℕ) : runMax s (n + 1) = max (runMax s n) (s n : EReal) := by
  unfold runMax
  rw [Finset.range_add_one, Finset.sup_insert]
  exact max_comm _ _

/-- Appending a block of `T` logits: the new maximum is the maximum of the old maximum and the block's
    maximum. Holds for every `n` and `T`, the empty prefix and the empty block included. -/
theorem runMax_add (s : ℕ → ℝ) (n T : ℕ) :
    runMax s (n + T) = max (runMax s n) ((Finset.range T).sup fun j => ((s (n + j) : ℝ) : EReal)) := by
  induction T with
  | zero => simp
  | succ T ih =>
    rw [← Nat.add_assoc, runMax_succ, ih, Finset.range_add_one, Finset.sup_insert, max_assoc]
    congr 1
    exact max_comm _ _

/-- The maximum of a nonempty prefix of real logits is a real number. -/
theorem runMax_real (s : ℕ → ℝ) {n : ℕ} (hn : 0 < n) : ∃ M : ℝ, runMax s n = (M : EReal) := by
  induction n with
  | zero => exact absurd hn (lt_irrefl 0)
  | succ k ih =>
    rcases Nat.eq_zero_or_pos k with rfl | hk
    · exact ⟨s 0, by rw [runMax_succ, runMax_zero, max_eq_right bot_le]⟩
    · obtain ⟨M, hM⟩ := ih hk
      exact ⟨max M (s k), by rw [runMax_succ, hM, coe_max]⟩

/-- When the running maximum is the real `M`, the denominator is the coercion of the real sum
    `∑_{j<n} exp (s j - M)`. -/
theorem runDen_of_max (s : ℕ → ℝ) {n : ℕ} {M : ℝ} (h : runMax s n = (M : EReal)) :
    runDen s n = ((∑ j ∈ Finset.range n, Real.exp (s j - M) : ℝ) : EReal) := by
  unfold runDen
  rw [h, coe_finset_sum]
  exact Finset.sum_congr rfl fun j _ => exp_coe_sub _ _

/-- When the running maximum is the real `M`, the weighted sum is the coercion of the real sum
    `∑_{j<n} exp (s j - M) * v j`. -/
theorem runNum_of_max (s v : ℕ → ℝ) {n : ℕ} {M : ℝ} (h : runMax s n = (M : EReal)) :
    runNum s v n = ((∑ j ∈ Finset.range n, Real.exp (s j - M) * v j : ℝ) : EReal) := by
  unfold runNum
  rw [h, coe_finset_sum]
  exact Finset.sum_congr rfl fun j _ => by rw [exp_coe_sub, EReal.coe_mul]

/-- The denominator of a nonempty prefix is a positive real number. -/
theorem runDen_pos_real (s : ℕ → ℝ) {n : ℕ} (hn : 0 < n) :
    ∃ L : ℝ, 0 < L ∧ runDen s n = (L : EReal) := by
  obtain ⟨M, hM⟩ := runMax_real s hn
  refine ⟨_, ?_, runDen_of_max s hM⟩
  exact Finset.sum_pos (fun j _ => Real.exp_pos _) ⟨0, Finset.mem_range.2 hn⟩

/-- The weighted sum over a nonempty prefix is a real number. -/
theorem runNum_real (s v : ℕ → ℝ) {n : ℕ} (hn : 0 < n) : ∃ A : ℝ, runNum s v n = (A : EReal) := by
  obtain ⟨M, hM⟩ := runMax_real s hn
  exact ⟨_, runNum_of_max s v hM⟩

/-! ### One streaming step -/

/-- Appending a block of `T` logits rescales the old denominator by `exp (m - m')` and adds the block's
    terms relative to the new maximum `m'`. For `n = 0` the old maximum is `⊥`, `exp (⊥ - m') = 0` and the
    old denominator is `0`; for `n > 0` this is `exp (m - m') * exp (s j - m) = exp (s j - m')` in `ℝ`. -/
theorem runDen_add (s : ℕ → ℝ) (n T : ℕ) :
    runDen s (n + T) = Ideal.exp (runMax s n - runMax s (n + T)) * runDen s n
      + ∑ j ∈ Finset.range T, Ideal.exp ((s (n + j) : EReal) - runMax s (n + T)) := by
  rcases Nat.eq_zero_or_pos n with rfl | hn
  · rw [runMax_zero, EReal.bot_sub, Ideal.exp_bot, runDen_zero, mul_zero]
    simp only [zero_add]
    rfl
  · obtain ⟨M, hM⟩ := runMax_real s hn
    obtain ⟨M', hM'⟩ := runMax_real s (Nat.add_pos_left hn T)
    rw [runDen_of_max s hM', runDen_of_max s hM, hM, hM']
    simp only [exp_coe_sub]
    rw [← coe_finset_sum, ← EReal.coe_mul, ← EReal.coe_add]
    congr 1
    rw [Finset.sum_range_add, Finset.mul_sum]
    congr 1
    refine Finset.sum_congr rfl fun j _ => ?_
    rw [← Real.exp_add]
    congr 1
    ring

/-- Appending a block of `T` logits and values rescales the old weighted sum by `exp (m - m')` and adds
    the block's weighted terms relative to the new maximum `m'`; the cases are as in `runDen_add`. -/
theorem runNum_add (s v : ℕ → ℝ) (n T : ℕ) :
    runNum s v (n + T) = Ideal.exp (runMax s n - runMax s (n + T)) * runNum s v n
      + ∑ j ∈ Finset.range T,
          Ideal.exp ((s (n + j) : EReal) - runMax s (n + T)) * (v (n + j) : EReal) := by
  rcases Nat.eq_zero_or_pos n with rfl | hn
  · rw [runMax_zero, EReal.bot_sub, Ideal.exp_bot, runNum_zero, mul_zero]
    simp only [zero_add]
    rfl
  · obtain ⟨M, hM⟩ := runMax_real s hn
    obtain ⟨M', hM'⟩ := runMax_real s (Nat.add_pos_left hn T)
    rw [runNum_of_max s v hM', runNum_of_max s v hM, hM, hM']
    simp only [exp_coe_sub, ← EReal.coe_mul]
    rw [← coe_finset_sum, ← EReal.coe_add]
    congr 1
    rw [Finset.sum_range_add, Finset.mul_sum]
    congr 1
    refine Finset.sum_congr rfl fun j _ => ?_
    rw [← mul_assoc, ← Real.exp_add]
    congr 2
    ring

/-! ### The same steps in the forms a block reduction produces: a zero seed, an index in `Fin T` -/

/-- `runDen_add` with the block's sum started from the seed `0`. -/
theorem runDen_add_zero (s : ℕ → ℝ) (n T : ℕ) :
    runDen s (n + T) = Ideal.exp (runMax s n - runMax s (n + T)) * runDen s n
      + (0 + ∑ j ∈ Finset.range T, Ideal.exp ((s (n + j) : EReal) - runMax s (n + T))) := by
  rw [zero_add]; exact runDen_add s n T

/-- `runNum_add` with the block's sum started from the seed `0`. -/
theorem runNum_add_zero (s v : ℕ → ℝ) (n T : ℕ) :
    runNum s v (n + T) = Ideal.exp (runMax s n - runMax s (n + T)) * runNum s v n
      + (0 + ∑ j ∈ Finset.range T,
          Ideal.exp ((s (n + j) : EReal) - runMax s (n + T)) * (v (n + j) : EReal)) := by
  rw [zero_add]; exact runNum_add s v n T

/-- `runMax_add` with the block's maximum taken over `Fin T`. -/
theorem runMax_add_fin (s : ℕ → ℝ) (n T : ℕ) :
    runMax s (n + T)
      = max (runMax s n) ((Finset.univ : Finset (Fin T)).sup fun j => ((s (n + j.val) : ℝ) : EReal)) := by
  rw [sup_univ_fin_eq_sup_range T fun j => ((s (n + j) : ℝ) : EReal)]; exact runMax_add s n T

/-- `runMax_add` with the block's maximum written `⨆ j : Fin T, _`. -/
theorem runMax_add_iSup (s : ℕ → ℝ) (n T : ℕ) :
    runMax s (n + T) = max (runMax s n) (⨆ j : Fin T, ((s (n + j.val) : ℝ) : EReal)) := by
  rw [iSup_fin_eq_sup_range T fun j => ((s (n + j) : ℝ) : EReal)]; exact runMax_add s n T

/-- `runMax_add` with the block's maximum written as the fold of `max` from `⊥` over `Fin T`. -/
theorem runMax_add_fold (s : ℕ → ℝ) (n T : ℕ) :
    runMax s (n + T)
      = max (runMax s n)
          ((Finset.univ : Finset (Fin T)).fold max ⊥ fun j => ((s (n + j.val) : ℝ) : EReal)) := by
  rw [fold_max_bot_fin_eq_sup_range T fun j => ((s (n + j) : ℝ) : EReal)]; exact runMax_add s n T

/-- `runDen_add` with the block's sum taken over `Fin T`. -/
theorem runDen_add_fin (s : ℕ → ℝ) (n T : ℕ) :
    runDen s (n + T) = Ideal.exp (runMax s n - runMax s (n + T)) * runDen s n
      + ∑ j : Fin T, Ideal.exp ((s (n + j.val) : EReal) - runMax s (n + T)) := by
  rw [Fin.sum_univ_eq_sum_range fun j => Ideal.exp ((s (n + j) : EReal) - runMax s (n + T))]
  exact runDen_add s n T

/-- `runDen_add` with the block's sum taken over `Fin T` from the seed `0`. -/
theorem runDen_add_zero_fin (s : ℕ → ℝ) (n T : ℕ) :
    runDen s (n + T) = Ideal.exp (runMax s n - runMax s (n + T)) * runDen s n
      + (0 + ∑ j : Fin T, Ideal.exp ((s (n + j.val) : EReal) - runMax s (n + T))) := by
  rw [zero_add]; exact runDen_add_fin s n T

/-- `runNum_add` with the block's sum taken over `Fin T`. -/
theorem runNum_add_fin (s v : ℕ → ℝ) (n T : ℕ) :
    runNum s v (n + T) = Ideal.exp (runMax s n - runMax s (n + T)) * runNum s v n
      + ∑ j : Fin T, Ideal.exp ((s (n + j.val) : EReal) - runMax s (n + T)) * (v (n + j.val) : EReal) := by
  rw [Fin.sum_univ_eq_sum_range fun j =>
    Ideal.exp ((s (n + j) : EReal) - runMax s (n + T)) * (v (n + j) : EReal)]
  exact runNum_add s v n T

/-- `runNum_add` with the block's sum taken over `Fin T` from the seed `0`. -/
theorem runNum_add_zero_fin (s v : ℕ → ℝ) (n T : ℕ) :
    runNum s v (n + T) = Ideal.exp (runMax s n - runMax s (n + T)) * runNum s v n
      + (0 + ∑ j : Fin T,
          Ideal.exp ((s (n + j.val) : EReal) - runMax s (n + T)) * (v (n + j.val) : EReal)) := by
  rw [zero_add]; exact runNum_add_fin s v n T

/-! ### Normalising once at the end -/

/-- Dividing the accumulated weighted sum by the denominator equals summing the normalised weights
    times the values: `(∑ e_j v_j) / L = ∑ (e_j / L) v_j`. Valid because for a nonempty prefix every `e_j`,
    `v_j` is real and `L` is a positive real, so division by `L` is multiplication by the real `1 / L` and
    distributes over the finite sum. -/
theorem softmax_final (s v : ℕ → ℝ) {n : ℕ} (hn : 0 < n) :
    Ideal.div (runNum s v n) (runDen s n)
      = ∑ j ∈ Finset.range n,
          Ideal.div (Ideal.exp ((s j : EReal) - runMax s n)) (runDen s n) * (v j : EReal) := by
  obtain ⟨M, hM⟩ := runMax_real s hn
  obtain ⟨L, hL, hden⟩ := runDen_pos_real s hn
  rw [hden, runNum_of_max s v hM, hM]
  simp only [Ideal.div_coe hL.ne', exp_coe_sub, ← EReal.coe_mul]
  rw [← coe_finset_sum]
  congr 1
  rw [Finset.sum_mul]
  refine Finset.sum_congr rfl fun j _ => ?_
  ring

end LibOnlineSoftmax

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«171237_j90855738180064_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.KI.FlashValue.lean ====
/-
  The value of the streaming-softmax state of region 1, entry by entry, at the extended reals.

  Region 1 walks a 4 x 8 grid. At point t it holds query block t / 8 (1024 rows), key block t % 8 and value block
  t % 8 (512 rows each) of three arrays Q, K, V of 4096 rows of 1024 numbers, and it carries, for every query row, the
  running maximum m of the row's scores, the running denominator l and the running numerator a of a softmax over the
  keys seen so far. When every entry of Q, K, V is a real number, the score of query row i against key row j is the real
  dot product

      logit i j = ∑ e < 1024, Q[i,e] * K[j,e],

  and after point t the state of query row i = 1024 (t / 8) + r is exactly

      m[r]    = max of logit i j over the first n keys,
      l[r]    = ∑ j < n, exp (logit i j - m[r]),
      a[r,d]  = ∑ j < n, exp (logit i j - m[r]) * V[j,d],          n = 512 (t % 8 + 1),

  the three running quantities runMax, runDen, runNum of the prefix of length n. At the last point of a query block
  n = 4096, and the block written out is a[r,d] / l[r].

  The argument has three layers.
  * One update read at an entry. The score block is computed as q·kᵀ + q·(k − k)ᵀ + (q − q)·kᵀ; for real entries
    x − x = 0 and a product with 0 is 0, so the two correction terms vanish and the entry is the real dot product.
    (This needs the entries real: ⊤ − ⊤ is not 0.) The new maximum is max (old maximum, largest score of the row in the
    block); the old denominator and numerator are rescaled by exp (old maximum − new maximum) and the block's terms
    exp (score − new maximum), resp. those times the value entries, are added.
  * These are word for word the rules by which runMax, runDen, runNum of a prefix of length n become those of length
    n + 512 (LibOnlineSoftmax), and the state a query block starts from, (−∞, 0, 0), is the three quantities of the empty
    prefix.
  * The blocks: entry (y0, y1) of the query block at point t is Q[1024 (t / 8) + y0, y1]; of the key and value blocks,
    K[512 (t % 8) + y0, y1] and V[512 (t % 8) + y0, y1]. So the block at point t continues the prefix of length
    512 (t % 8) of the same query row, and an induction over the points of the grid gives the closed form.
-/
import proofs.«171237_j90855738180064_2_alg».proof.Proof.KI.Data
import proofs.«171237_j90855738180064_2_alg».proof.Proof.LibOnlineSoftmax
import proofs.«171237_j90855738180064_2_alg».proof.Proof.LibMaxLane
import proofs.«171237_j90855738180064_2_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.FlashValue

open Idealize.ShloMosaic Idealize.ShloMosaic.TcCoe Idealize.ShloMosaic.ValueIdx
open Idealize.SL Idealize.SL.Sem
open Cert.KernelIdeal Cert.KernelIdeal.Gen Cert.KernelIdeal.Flash
open scoped BigOperators

/-- The real score of query row `i` against key row `j`: the dot product of the two rows of 1024 reals,
    `∑ e < 1024, qf i e * kf j e` (a sum over `Finset.range 1024`). -/
def logit (qf kf : ℕ → ℕ → ℝ) (i j : ℕ) : ℝ := ∑ e ∈ Finset.range 1024, qf i e * kf j e

/-! ## The two matrix products at an entry

Both products contract ONE axis: the score product contracts the 1024 columns of the query block against the 1024 rows
of the transposed key block, the value product contracts the 512 columns of the weight block against the 512 rows of
the value block. Into a zero accumulator, entry (r, c) of such a product is the sum over the contracted coordinate of
left[r, e] * right[e, c]. -/

/-- The dimension numbers of the score product [1024,1024] x [1024,512]. -/
abbrev DS := dot_S1024x1024_S1024x512_S1024x512_1_0_0_1_n_n
/-- The dimension numbers of the value product [1024,512] x [512,1024]. -/
abbrev DV := dot_S1024x512_S512x1024_S1024x1024_1_0_0_1_n_n

/-- Score product, left operand: its row is the output's row … -/
theorem DS_lhs0 (i : S1024x512.Idx) (q : DS.contr.Idx) : (DS.lhsIdx i q 0).val = (i 0).val := by
  unfold DotDims.lhsIdx
  rw [dif_neg (show ¬(0 : Fin S1024x1024.rank) ∈ DS.lhsBatch by decide), dif_pos (show (0 : Fin S1024x1024.rank) ∈ DS.lhsNonContracting by decide)]
  rfl
/-- … and its column is the contracted coordinate. -/
theorem DS_lhs1 (i : S1024x512.Idx) (q : DS.contr.Idx) : (DS.lhsIdx i q 1).val = (q ⟨0, by decide⟩).val :=
  DS.lhsIdx_val_of_single rfl i q
/-- Score product, right operand: its row is the contracted coordinate … -/
theorem DS_rhs0 (i : S1024x512.Idx) (q : DS.contr.Idx) : (DS.rhsIdx i q 0).val = (q ⟨0, by decide⟩).val :=
  DS.rhsIdx_val_of_single rfl i q
/-- … and its column is the output's column. -/
theorem DS_rhs1 (i : S1024x512.Idx) (q : DS.contr.Idx) : (DS.rhsIdx i q 1).val = (i 1).val := by
  unfold DotDims.rhsIdx
  rw [dif_neg (show ¬(1 : Fin S1024x512.rank) ∈ DS.rhsBatch by decide), dif_pos (show (1 : Fin S1024x512.rank) ∈ DS.rhsNonContracting by decide)]
  rfl

/-- Entry (r, j) of the score product into a zero accumulator: `∑ e, a[r,e] * b[e,j]`. -/
theorem scoreDot_apply (a : FVec Ideal S1024x1024 .bf16) (b : FVec Ideal S1024x512 .bf16) (r : Fin 1024) (j : Fin 512) :
    matmul DS none a b (constant (F := Ideal) S1024x512 .f32 0x00000000#32) (ix2 r j)
      = ∑ e : Fin 1024, a (ix2 r e) * b (ix2 e j) := by
  refine (Ideal.matmul_constant_zero_apply DS none a b (ix2 r j)).trans ?_
  rw [← Equiv.sum_comp (contrEquiv1 DS 1024 rfl rfl).symm]
  refine Finset.sum_congr rfl fun e _ => ?_
  have hk := contrEquiv1_symm_val DS 1024 rfl rfl e
  have el : DS.lhsIdx (ix2 r j) ((contrEquiv1 DS 1024 rfl rfl).symm e) = ix2 r e := funext fun x => Fin.ext (by
    match x with
    | ⟨0, _⟩ => exact DS_lhs0 _ _
    | ⟨1, _⟩ => exact (DS_lhs1 _ _).trans hk)
  have er : DS.rhsIdx (ix2 r j) ((contrEquiv1 DS 1024 rfl rfl).symm e) = ix2 e j := funext fun x => Fin.ext (by
    match x with
    | ⟨0, _⟩ => exact (DS_rhs0 _ _).trans hk
    | ⟨1, _⟩ => exact DS_rhs1 _ _)
  rw [el, er]

/-- Value product, left operand: its row is the output's row … -/
theorem DV_lhs0 (i : S1024x1024.Idx) (q : DV.contr.Idx) : (DV.lhsIdx i q 0).val = (i 0).val := by
  unfold DotDims.lhsIdx
  rw [dif_neg (show ¬(0 : Fin S1024x512.rank) ∈ DV.lhsBatch by decide), dif_pos (show (0 : Fin S1024x512.rank) ∈ DV.lhsNonContracting by decide)]
  rfl
/-- … and its column is the contracted coordinate. -/
theorem DV_lhs1 (i : S1024x1024.Idx) (q : DV.contr.Idx) : (DV.lhsIdx i q 1).val = (q ⟨0, by decide⟩).val :=
  DV.lhsIdx_val_of_single rfl i q
/-- Value product, right operand: its row is the contracted coordinate … -/
theorem DV_rhs0 (i : S1024x1024.Idx) (q : DV.contr.Idx) : (DV.rhsIdx i q 0).val = (q ⟨0, by decide⟩).val :=
  DV.rhsIdx_val_of_single rfl i q
/-- … and its column is the output's column. -/
theorem DV_rhs1 (i : S1024x1024.Idx) (q : DV.contr.Idx) : (DV.rhsIdx i q 1).val = (i 1).val := by
  unfold DotDims.rhsIdx
  rw [dif_neg (show ¬(1 : Fin S512x1024.rank) ∈ DV.rhsBatch by decide), dif_pos (show (1 : Fin S512x1024.rank) ∈ DV.rhsNonContracting by decide)]
  rfl

/-- Entry (r, d) of the value product into a zero accumulator: `∑ j, a[r,j] * b[j,d]`. -/
theorem valueDot_apply (a : FVec Ideal S1024x512 .bf16) (b : FVec Ideal S512x1024 .bf16) (r : Fin 1024) (d : Fin 1024) :
    matmul DV none a b (constant (F := Ideal) S1024x1024 .f32 0x00000000#32) (ix2 r d)
      = ∑ j : Fin 512, a (ix2 r j) * b (ix2 j d) := by
  refine (Ideal.matmul_constant_zero_apply DV none a b (ix2 r d)).trans ?_
  rw [← Equiv.sum_comp (contrEquiv1 DV 512 rfl rfl).symm]
  refine Finset.sum_congr rfl fun e _ => ?_
  have hk := contrEquiv1_symm_val DV 512 rfl rfl e
  have el : DV.lhsIdx (ix2 r d) ((contrEquiv1 DV 512 rfl rfl).symm e) = ix2 r e := funext fun x => Fin.ext (by
    match x with
    | ⟨0, _⟩ => exact DV_lhs0 _ _
    | ⟨1, _⟩ => exact (DV_lhs1 _ _).trans hk)
  have er : DV.rhsIdx (ix2 r d) ((contrEquiv1 DV 512 rfl rfl).symm e) = ix2 e d := funext fun x => Fin.ext (by
    match x with
    | ⟨0, _⟩ => exact (DV_rhs0 _ _).trans hk
    | ⟨1, _⟩ => exact DV_rhs1 _ _)
  rw [el, er]

/-! ## The scores

The key block enters the score product transposed: entry (e, j) of the transpose is entry (j, e) of the block. Each
operand is split as x and x − x, and three of the four cross products are added. -/

/-- Entry (e, j) of the transposed key block is entry (j, e) of the block. -/
theorem keyT_apply {α : Type} (x : S512x1024.Idx → α) (h : S512x1024.Transposes [1, 0] S1024x512) (e : Fin 1024) (j : Fin 512) :
    transpose S1024x512 [1, 0] x h (ix2 e j) = x (ix2 j e) :=
  transpose_apply [1, 0] x h (ix2 e j) (ix2 j e) (fun b => by match b with | ⟨0, _⟩ => rfl | ⟨1, _⟩ => rfl)

/-- Entry (r, j) of a query-side block times the transpose of a key-side block: the dot product of row r of the one
    with row j of the other. -/
theorem scoreDotT_apply (a : FVec Ideal S1024x1024 .bf16) (b : FVec Ideal S512x1024 .bf16)
    (h : S512x1024.Transposes [1, 0] S1024x512) (r : Fin 1024) (j : Fin 512) :
    matmul DS none a (transpose S1024x512 [1, 0] b h) (constant (F := Ideal) S1024x512 .f32 0x00000000#32) (ix2 r j)
      = ∑ e : Fin 1024, a (ix2 r e) * b (ix2 j e) := by
  rw [scoreDot_apply]
  exact Finset.sum_congr rfl fun e _ => by rw [keyT_apply]

/-- THE SCORE. When row r of the query block and every row of the key block are real, entry (r, j) of the score block is
    the real dot product of query row r and key row j: in q·kᵀ + q·(k − k)ᵀ + (q − q)·kᵀ every term of the second sum is
    x * (y − y) = x * 0 = 0 and every term of the third is (x − x) * y = 0 * y = 0, for real x and y. -/
theorem score_apply (q : Vec Ideal S1024x1024 .f32) (k : Vec Ideal S512x1024 .f32) (r : Fin 1024)
    (qr : Fin 1024 → ℝ) (kr : Fin 512 → Fin 1024 → ℝ)
    (hq : ∀ e, q (ix2 r e) = ((qr e : ℝ) : EReal)) (hk : ∀ j e, k (ix2 j e) = ((kr j e : ℝ) : EReal))
    (j : Fin 512) :
    k1_pay9 q k (ix2 r j) = ((∑ e : Fin 1024, qr e * kr j e : ℝ) : EReal) := by
  have e1 : ∀ e : Fin 1024, q (ix2 r e) * k (ix2 j e) = ((qr e * kr j e : ℝ) : EReal) := fun e => by
    rw [hq, hk, EReal.coe_mul]
  have e2 : ∀ e : Fin 1024, q (ix2 r e) * (k (ix2 j e) - k (ix2 j e)) = 0 := fun e => by
    rw [hk, ← EReal.coe_sub, sub_self, EReal.coe_zero, mul_zero]
  have e3 : ∀ e : Fin 1024, (q (ix2 r e) - q (ix2 r e)) * k (ix2 j e) = 0 := fun e => by
    rw [hq, ← EReal.coe_sub, sub_self, EReal.coe_zero, zero_mul]
  unfold k1_pay9
  simp only [shapeCast_self, addf_apply]
  rw [scoreDotT_apply, scoreDotT_apply, scoreDotT_apply]
  simp only [truncf_apply, subf_apply]
  simp only [e1, e2, e3, Finset.sum_const_zero, add_zero]
  exact (LibOnlineSoftmax.coe_finset_sum _ _).symm

/-! ## The other operations of one update, at an entry

A reduction along the 512 columns of a [1024, 512] block leaves one number per row; it comes back as a [1024, 1] column,
which is broadcast along the columns where it meets a matrix again. So every per-row quantity is read at (r, 0), and its
broadcast at (r, c) is that same number. -/

/-- The exponential of a vector at an entry is the extended exponential of the entry. -/
theorem exp_at {s : Shape} {φ : FTy} (x : FVec Ideal s φ) (i : s.Idx) : exp x i = Ideal.exp (x i) := rfl

/-- The row maximum from −∞ of a [1024, 512] block, at row r: the supremum of the row's 512 entries. -/
theorem rowMax_apply (x : FVec Ideal S1024x512 .f32) (h : S1024x512.Reduces [1] S1024) (hφ : FKind.Formats .f32)
    (hacc : (0xFF800000#32 : BitVec 32) = FKind.maximumf.neutral .f32 hφ) (r : Fin 1024) :
    multiReduction (F := Ideal) .maximumf [1] S1024 x 0xFF800000#32 h hφ hacc (ix1 r) = ⨆ j : Fin 512, x (ix2 r j) := by
  refine (Cert.Lib.MaxLane.maxReduce_single x h hφ hacc (ix1 r)).trans ?_
  show (⨆ j : Fin 512, x (h.lift (ix1 r) j)) = _
  refine iSup_congr fun j => congrArg x (funext fun a => Fin.ext ?_)
  match a with
  | ⟨0, _⟩ => rfl
  | ⟨1, _⟩ => rfl

/-- The row sum of a [1024, 512] block, at row r: the sum of the row's 512 entries. -/
theorem rowSum_apply (x : FVec Ideal S1024x512 .f32) (h : S1024x512.Reduces [1] S1024) (hφ : FKind.Formats .f32)
    (hacc : (0x00000000#32 : BitVec 32) = FKind.add.neutral .f32 hφ) (r : Fin 1024) :
    multiReduction (F := Ideal) .add [1] S1024 x 0x00000000#32 h hφ hacc (ix1 r) = ∑ j : Fin 512, x (ix2 r j) := by
  refine (Ideal.multiReduction_add_single x 0x00000000#32 h hφ hacc (ix1 r)).trans ?_
  show (∑ j : Fin 512, x (h.lift (ix1 r) j)) = _
  refine Finset.sum_congr rfl fun j _ => congrArg x (funext fun a => Fin.ext ?_)
  match a with
  | ⟨0, _⟩ => rfl
  | ⟨1, _⟩ => rfl

/-- A reshape of a column to its own shape changes nothing. -/
theorem pay3_eq (v : FVec Ideal S1024x1 .f32) : k1_pay3 v = v := by
  unfold k1_pay3; exact shapeCast_self v _

/-- A reshape of the value block to its own shape changes nothing. -/
theorem pay8_eq (v : Vec Ideal S512x1024 .bf16) : k1_pay8 v = v := by
  unfold k1_pay8; exact shapeCast_self v _

/-- THE NEW MAXIMUM of row r: the larger of the old maximum and the largest of the row's 512 scores. -/
theorem pay10_apply (q : Vec Ideal S1024x1024 .f32) (k : Vec Ideal S512x1024 .f32) (m : Vec Ideal S1024x1 .f32) (r : Fin 1024) :
    k1_pay10 q k m (ix2 r 0) = max (m (ix2 r 0)) (⨆ j : Fin 512, k1_pay9 q k (ix2 r j)) := by
  unfold k1_pay10
  refine (maximumf_apply _ _ _).trans ?_
  refine congrArg (max (m (ix2 r 0))) ?_
  refine (Cert.Lib.KeepdimsColumn.column_cast_at _ _ r).trans ?_
  exact rowMax_apply _ _ _ _ r

/-- THE RESCALING FACTOR of row r: exp (old maximum − new maximum). -/
theorem pay11_apply (q : Vec Ideal S1024x1024 .f32) (k : Vec Ideal S512x1024 .f32) (m m₀ : Vec Ideal S1024x1 .f32) (r : Fin 1024) :
    k1_pay11 q k m m₀ (ix2 r 0) = Ideal.exp (m₀ (ix2 r 0) - k1_pay10 q k m (ix2 r 0)) := by
  unfold k1_pay11
  rfl

/-- THE WEIGHTS of the block: entry (r, j) is exp (score (r, j) − new maximum of row r). -/
theorem pay12_apply (q : Vec Ideal S1024x1024 .f32) (k : Vec Ideal S512x1024 .f32) (m : Vec Ideal S1024x1 .f32) (r : Fin 1024) (j : Fin 512) :
    k1_pay12 q k m (ix2 r j) = Ideal.exp (k1_pay9 q k (ix2 r j) - k1_pay10 q k m (ix2 r 0)) := by
  unfold k1_pay12
  refine (exp_at _ _).trans ?_
  refine congrArg Ideal.exp ?_
  refine (subf_apply _ _ _).trans ?_
  refine congrArg (k1_pay9 q k (ix2 r j) - ·) ?_
  exact Cert.Lib.KeepdimsColumn.column_broadcast_at _ _ r j

/-- THE NEW DENOMINATOR of row r: the rescaled old denominator plus the sum of the row's 512 weights. -/
theorem pay1_apply (q : Vec Ideal S1024x1024 .f32) (k : Vec Ideal S512x1024 .f32) (m l : Vec Ideal S1024x1 .f32) (r : Fin 1024) :
    k1_pay1 (k1_pay13 q k m m l) (k1_pay14 q k m) (ix2 r 0)
      = k1_pay11 q k m m (ix2 r 0) * l (ix2 r 0) + ∑ j : Fin 512, k1_pay12 q k m (ix2 r j) := by
  unfold k1_pay1
  rw [shapeCast_self]
  refine (addf_apply _ _ _).trans ?_
  refine congrArg₂ (· + ·) ?_ ?_
  · unfold k1_pay13; rfl
  · refine (Cert.Lib.KeepdimsColumn.column_cast_at _ _ r).trans ?_
    unfold k1_pay14
    exact rowSum_apply _ _ _ _ r

/-- THE NEW NUMERATOR at (r, d): the rescaled old numerator plus the sum over the block's 512 keys of weight (r, j)
    times value (j, d). -/
theorem pay2_apply (v : Vec Ideal S512x1024 .bf16) (al : FVec Ideal S1024x1 .f32) (p : FVec Ideal S1024x512 .f32)
    (a : Vec Ideal S1024x1024 .f32) (r d : Fin 1024) :
    k1_pay2 (k1_pay8 v) al p a (ix2 r d) = al (ix2 r 0) * a (ix2 r d) + ∑ j : Fin 512, p (ix2 r j) * v (ix2 j d) := by
  rw [pay8_eq]
  unfold k1_pay2
  rw [shapeCast_self]
  refine (addf_apply _ _ _).trans ?_
  refine congrArg₂ (· + ·) ?_ ?_
  · refine (mulf_apply _ _ _).trans ?_
    refine congrArg (· * a (ix2 r d)) ?_
    exact Cert.Lib.KeepdimsColumn.column_broadcast_at _ _ r d
  · exact valueDot_apply _ _ r d

/-- THE NORMALISED BLOCK at (r, d): numerator (r, d) over denominator of row r. -/
theorem pay4_apply (a : Vec Ideal S1024x1024 .f32) (l : Vec Ideal S1024x1 .f32) (r d : Fin 1024) :
    k1_pay4 a l (ix2 r d) = Ideal.div (a (ix2 r d)) (l (ix2 r 0)) := by
  unfold k1_pay4
  refine (divf_apply _ _ _).trans ?_
  refine congrArg (Ideal.div (a (ix2 r d))) ?_
  exact Cert.Lib.KeepdimsColumn.column_broadcast_at _ _ r d

/-! ## The fresh state

A query block starts from maximum −∞, denominator 0 and numerator 0 in every row: the three running quantities of the
empty prefix. -/

theorem init_m (r : Fin 1024) : (St.init (F := Ideal)).m (ix2 r 0) = ⊥ := by
  show k1_pay5 (F := Ideal) (ix2 r 0) = ⊥
  unfold k1_pay5
  rw [shapeCast_self]
  exact Cert.Lib.MaxReduce.ofBits_neg_inf_f32

theorem init_l (r : Fin 1024) : (St.init (F := Ideal)).l (ix2 r 0) = 0 := by
  show k1_pay6 (F := Ideal) (ix2 r 0) = 0
  unfold k1_pay6
  rw [shapeCast_self]
  exact Ideal.ofBits_zero_f32

theorem init_a (r d : Fin 1024) : (St.init (F := Ideal)).a (ix2 r d) = 0 := by
  show k1_pay7 (F := Ideal) (ix2 r d) = 0
  unfold k1_pay7
  rw [shapeCast_self]
  exact Ideal.ofBits_zero_f32

/-! ## The blocks a point holds

An entry of a block sits in its array, on each axis, at block index × block size + its coordinate inside the block.
The query window's block index at point t is (t / 8, 0); the key and value windows' is (t % 8, 0). -/

variable (V : (c : Dev nD) → (b : Ref sig .tc) → Buf (Elt Ideal) ((c : Thread nD τ).loc b))

/-- The block indices of the three input windows at every point of the 4 x 8 grid. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0 :=
  (by decide +kernel : ∀ t : Fin grid1.N, _)

/-- The grid has 32 points. -/
theorem t_lt (t : Fin cfg1.N) : t.val < 32 := by
  have h : t.val < grid1.N := t.isLt
  rw [N_1] at h; exact h

/-- Entry (y0, y1) of the query block at point t is Q[1024 (t / 8) + y0, y1]. -/
theorem qblk_apply (c : Dev nD) (t : Fin cfg1.N) (y0 y1 : Fin 1024) :
    (iblk1 V c 0 t : Vec Ideal S1024x1024 .f32) (ix2 y0 y1)
      = V c main_v1_0 (ix2 (⟨1024 * (t.val / 8) + y0.val, by have := t_lt t; omega⟩ : Fin 4096) y1) := by
  show V c main_v1_0 (((cfg1.win 0).blk t).view.emb (ix2 y0 y1)) = _
  obtain ⟨e0, e1, -⟩ := idx_facts t
  refine congrArg (V c main_v1_0) (funext fun a => Fin.ext ?_)
  match a with
  | ⟨0, _⟩ => show win1_0.index t (0 : Fin 2) * 1024 + 1 * y0.val = 1024 * (t.val / 8) + y0.val; omega
  | ⟨1, _⟩ => show win1_0.index t (1 : Fin 2) * 1024 + 1 * y1.val = y1.val; omega

/-- Entry (y0, y1) of the key block at point t is K[512 (t % 8) + y0, y1]. -/
theorem kblk_apply (c : Dev nD) (t : Fin cfg1.N) (y0 : Fin 512) (y1 : Fin 1024) :
    (iblk1 V c 1 t : Vec Ideal S512x1024 .f32) (ix2 y0 y1)
      = V c main_v1_1 (ix2 (⟨512 * (t.val % 8) + y0.val, by omega⟩ : Fin 4096) y1) := by
  show V c main_v1_1 (((cfg1.win 1).blk t).view.emb (ix2 y0 y1)) = _
  obtain ⟨-, -, e0, e1, -⟩ := idx_facts t
  refine congrArg (V c main_v1_1) (funext fun a => Fin.ext ?_)
  match a with
  | ⟨0, _⟩ => show win1_1.index t (0 : Fin 2) * 512 + 1 * y0.val = 512 * (t.val % 8) + y0.val; omega
  | ⟨1, _⟩ => show win1_1.index t (1 : Fin 2) * 1024 + 1 * y1.val = y1.val; omega

/-- Entry (y0, y1) of the value block at point t is V[512 (t % 8) + y0, y1]. -/
theorem vblk_apply (c : Dev nD) (t : Fin cfg1.N) (y0 : Fin 512) (y1 : Fin 1024) :
    (iblk1 V c 2 t : Vec Ideal S512x1024 .bf16) (ix2 y0 y1)
      = V c main_v1_2 (ix2 (⟨512 * (t.val % 8) + y0.val, by omega⟩ : Fin 4096) y1) := by
  show V c main_v1_2 (((cfg1.win 2).blk t).view.emb (ix2 y0 y1)) = _
  obtain ⟨-, -, -, -, e0, e1⟩ := idx_facts t
  refine congrArg (V c main_v1_2) (funext fun a => Fin.ext ?_)
  match a with
  | ⟨0, _⟩ => show win1_2.index t (0 : Fin 2) * 512 + 1 * y0.val = 512 * (t.val % 8) + y0.val; omega
  | ⟨1, _⟩ => show win1_2.index t (1 : Fin 2) * 1024 + 1 * y1.val = y1.val; omega

/-! ## One update, row by row -/

open LibOnlineSoftmax in
/-- ONE UPDATE CONTINUES THE PREFIX. Let row r of the query block be query row i, and let the key and value blocks hold
    key and value rows n, …, n + 511, all real. If row r of the state holds the running maximum, denominator and numerator
    of the logits of query row i against the first n keys, then after the update it holds those of the first n + 512 keys:
    the update's three rules are the rules by which the running quantities absorb a block of 512 further logits. -/
theorem step_value (q : Vec Ideal S1024x1024 .f32) (k : Vec Ideal S512x1024 .f32) (v : Vec Ideal S512x1024 .bf16) (s : St Ideal)
    (qf kf vf : ℕ → ℕ → ℝ) (i n : ℕ) (r : Fin 1024)
    (hq : ∀ e : Fin 1024, q (ix2 r e) = ((qf i e : ℝ) : EReal))
    (hk : ∀ (j : Fin 512) (e : Fin 1024), k (ix2 j e) = ((kf (n + j) e : ℝ) : EReal))
    (hv : ∀ (j : Fin 512) (d : Fin 1024), v (ix2 j d) = ((vf (n + j) d : ℝ) : EReal))
    (hm : s.m (ix2 r 0) = runMax (logit qf kf i) n)
    (hl : s.l (ix2 r 0) = runDen (logit qf kf i) n)
    (ha : ∀ d : Fin 1024, s.a (ix2 r d) = runNum (logit qf kf i) (fun j => vf j d) n) :
    (St.step q k v s).m (ix2 r 0) = runMax (logit qf kf i) (n + 512)
    ∧ (St.step q k v s).l (ix2 r 0) = runDen (logit qf kf i) (n + 512)
    ∧ ∀ d : Fin 1024, (St.step q k v s).a (ix2 r d) = runNum (logit qf kf i) (fun j => vf j d) (n + 512) := by
  -- the score of row r against the block's j-th key is the logit of query row i against key row n + j
  have hs : ∀ j : Fin 512, k1_pay9 q k (ix2 r j) = ((logit qf kf i (n + j.val) : ℝ) : EReal) := fun j => by
    rw [score_apply q k r (fun e => qf i e) (fun j e => kf (n + j) e) hq hk j]
    unfold logit
    rw [Fin.sum_univ_eq_sum_range (fun e => qf i e * kf (n + j) e) 1024]
  -- the new maximum is the running maximum of the longer prefix
  have hM : k1_pay10 q k s.m (ix2 r 0) = runMax (logit qf kf i) (n + 512) := by
    rw [pay10_apply, hm, runMax_add_iSup]
    simp only [hs]
  refine ⟨?_, ?_, ?_⟩
  · show k1_pay3 (k1_pay10 q k s.m) (ix2 r 0) = _
    rw [pay3_eq]; exact hM
  · show k1_pay1 (k1_pay13 q k s.m s.m s.l) (k1_pay14 q k s.m) (ix2 r 0) = _
    rw [pay1_apply, pay11_apply, hM, hm, hl, runDen_add_fin]
    refine congrArg₂ (· + ·) rfl (Finset.sum_congr rfl fun j _ => ?_)
    rw [pay12_apply, hM, hs]
  · intro d
    show k1_pay2 (k1_pay8 v) (k1_pay11 q k s.m s.m) (k1_pay12 q k s.m) s.a (ix2 r d) = _
    rw [pay2_apply, pay11_apply, hM, hm, ha, runNum_add_fin]
    refine congrArg₂ (· + ·) rfl (Finset.sum_congr rfl fun j _ => ?_)
    rw [pay12_apply, hM, hs, hv]

/-! ## The invariant along the grid -/

open LibOnlineSoftmax in
/-- The fresh state holds, in every row and for every query row, the running quantities of the empty prefix. -/
theorem init_row (qf kf vf : ℕ → ℕ → ℝ) (r : Fin 1024) (i : ℕ) :
    (St.init (F := Ideal)).m (ix2 r 0) = runMax (logit qf kf i) 0
    ∧ (St.init (F := Ideal)).l (ix2 r 0) = runDen (logit qf kf i) 0
    ∧ ∀ d : Fin 1024, (St.init (F := Ideal)).a (ix2 r d) = runNum (logit qf kf i) (fun j => vf j d) 0 :=
  ⟨by rw [init_m, runMax_zero], by rw [init_l, runDen_zero], fun d => by rw [init_a, runNum_zero]⟩

open LibOnlineSoftmax in
/-- THE INVARIANT, by induction over the positions of the grid. Position n holds query block n / 8 and key/value block
    n % 8. The state it starts from holds the prefix of length 512 (n % 8) of query row 1024 (n / 8) + r: at n % 8 = 0 it is
    the fresh state and the prefix is empty; otherwise it is what position n − 1 left, which has the same query block
    ((n − 1) / 8 = n / 8) and, by the induction hypothesis, the prefix of length 512 ((n − 1) % 8 + 1) = 512 (n % 8). The
    update appends key rows 512 (n % 8), …, 512 (n % 8) + 511, giving the prefix of length 512 (n % 8 + 1). -/
theorem flash_row (qf kf vf : ℕ → ℕ → ℝ) (c : Dev nD)
    (hq : ∀ (i : Fin 4096) (e : Fin 1024), (V c main_v1_0) (ix2 i e) = ((qf i e : ℝ) : EReal))
    (hk : ∀ (j : Fin 4096) (e : Fin 1024), (V c main_v1_1) (ix2 j e) = ((kf j e : ℝ) : EReal))
    (hv : ∀ (j : Fin 4096) (d : Fin 1024), (V c main_v1_2) (ix2 j d) = ((vf j d : ℝ) : EReal)) :
    ∀ (n : ℕ) (hn : n < cfg1.N) (r : Fin 1024),
      (flashAt V c n hn).m (ix2 r 0) = runMax (logit qf kf (1024 * (n / 8) + r.val)) (512 * (n % 8 + 1))
      ∧ (flashAt V c n hn).l (ix2 r 0) = runDen (logit qf kf (1024 * (n / 8) + r.val)) (512 * (n % 8 + 1))
      ∧ ∀ d : Fin 1024, (flashAt V c n hn).a (ix2 r d)
          = runNum (logit qf kf (1024 * (n / 8) + r.val)) (fun j => vf j d) (512 * (n % 8 + 1)) := by
  intro n
  induction n using Nat.strong_induction_on with
  | _ n ih =>
    intro hn r
    have hlt : n < 32 := t_lt ⟨n, hn⟩
    have hstep : flashAt V c n hn = _ := flashAt_eq V c ⟨n, hn⟩
    have hb : (flashBefore V c ⟨n, hn⟩).m (ix2 r 0) = runMax (logit qf kf (1024 * (n / 8) + r.val)) (512 * (n % 8))
        ∧ (flashBefore V c ⟨n, hn⟩).l (ix2 r 0) = runDen (logit qf kf (1024 * (n / 8) + r.val)) (512 * (n % 8))
        ∧ ∀ d : Fin 1024, (flashBefore V c ⟨n, hn⟩).a (ix2 r d)
            = runNum (logit qf kf (1024 * (n / 8) + r.val)) (fun j => vf j d) (512 * (n % 8)) := by
      have hb0 : flashBefore V c ⟨n, hn⟩
          = if h : n % 8 = 0 then St.init else flashAt V c (n - 1) (Nat.lt_of_le_of_lt (Nat.sub_le _ _) hn) := rfl
      rw [hb0]
      by_cases h : n % 8 = 0
      · rw [dif_pos h, h]; exact init_row qf kf vf r _
      · rw [dif_neg h]
        have h1 : (n - 1) / 8 = n / 8 := by omega
        have h2 : (n - 1) % 8 + 1 = n % 8 := by omega
        have := ih (n - 1) (by omega) (Nat.lt_of_le_of_lt (Nat.sub_le _ _) hn) r
        rw [h1, h2] at this
        exact this
    have := step_value (iblk1 V c 0 ⟨n, hn⟩) (iblk1 V c 1 ⟨n, hn⟩) (iblk1 V c 2 ⟨n, hn⟩) (flashBefore V c ⟨n, hn⟩)
      qf kf vf (1024 * (n / 8) + r.val) (512 * (n % 8)) r
      (fun e => (qblk_apply V c ⟨n, hn⟩ r e).trans (hq _ e))
      (fun j e => (kblk_apply V c ⟨n, hn⟩ j e).trans (hk _ e))
      (fun j d => (vblk_apply V c ⟨n, hn⟩ j d).trans (hv _ d))
      hb.1 hb.2.1 hb.2.2
    rw [show 512 * (n % 8 + 1) = 512 * (n % 8) + 512 by omega, hstep]
    exact this

/-! ## The closed forms -/

open LibOnlineSoftmax in
/-- THE STATE AFTER POINT t. With Q, K, V real (`qf`, `kf`, `vf` their entries), row r of the state after point t holds
    the running maximum, denominator and numerator of the logits of query row 1024 (t / 8) + r against the first
    512 (t % 8 + 1) keys (the numerator's column d weighted by column d of V). -/
theorem flash_state (qf kf vf : ℕ → ℕ → ℝ) (c : Dev nD)
    (hq : ∀ (i : Fin 4096) (e : Fin 1024), (V c main_v1_0) (ix2 i e) = ((qf i e : ℝ) : EReal))
    (hk : ∀ (j : Fin 4096) (e : Fin 1024), (V c main_v1_1) (ix2 j e) = ((kf j e : ℝ) : EReal))
    (hv : ∀ (j : Fin 4096) (d : Fin 1024), (V c main_v1_2) (ix2 j d) = ((vf j d : ℝ) : EReal))
    (t : Fin cfg1.N) (r d : Fin 1024) :
    (flashAt V c t.val t.isLt).m (ix2 r 0)
        = runMax (logit qf kf (1024 * (t.val / 8) + r.val)) (512 * (t.val % 8 + 1))
    ∧ (flashAt V c t.val t.isLt).l (ix2 r 0)
        = runDen (logit qf kf (1024 * (t.val / 8) + r.val)) (512 * (t.val % 8 + 1))
    ∧ (flashAt V c t.val t.isLt).a (ix2 r d)
        = runNum (logit qf kf (1024 * (t.val / 8) + r.val)) (fun j => vf j d) (512 * (t.val % 8 + 1)) := by
  have h := flash_row V qf kf vf c hq hk hv t.val t.isLt r
  exact ⟨h.1, h.2.1, h.2.2 d⟩

open LibOnlineSoftmax in
/-- THE BLOCK WRITTEN OUT. At the last point of a query block (t % 8 = 7) all 4096 keys have been seen, and entry (r, d) of
    the normalised block is the accumulated numerator over the accumulated denominator of query row 1024 (t / 8) + r. -/
theorem flash_out (qf kf vf : ℕ → ℕ → ℝ) (c : Dev nD)
    (hq : ∀ (i : Fin 4096) (e : Fin 1024), (V c main_v1_0) (ix2 i e) = ((qf i e : ℝ) : EReal))
    (hk : ∀ (j : Fin 4096) (e : Fin 1024), (V c main_v1_1) (ix2 j e) = ((kf j e : ℝ) : EReal))
    (hv : ∀ (j : Fin 4096) (d : Fin 1024), (V c main_v1_2) (ix2 j d) = ((vf j d : ℝ) : EReal))
    (t : Fin cfg1.N) (ht : t.val % 8 = 7) (r d : Fin 1024) :
    (flashAt V c t.val t.isLt).out (ix2 r d)
      = Ideal.div (runNum (logit qf kf (1024 * (t.val / 8) + r.val)) (fun j => vf j d) 4096)
          (runDen (logit qf kf (1024 * (t.val / 8) + r.val)) 4096) := by
  have h := flash_row V qf kf vf c hq hk hv t.val t.isLt r
  have e : 512 * (t.val % 8 + 1) = 4096 := by omega
  rw [e] at h
  show k1_pay4 (flashAt V c t.val t.isLt).a (flashAt V c t.val t.isLt).l (ix2 r d) = _
  rw [pay4_apply, h.2.2 d, h.2.1]

end Cert.KernelIdeal.FlashValue

end
-- ==== Proof.RefSpec.lean ====
/-
  The reference as one function of its four arguments, at the extended reals.

  With Q = x·Wq, K = x·Wk, V = x·Wv (each entry a sum over the 1024 shared coordinates), the reference computes the
  scaled scores S(i,j) = (∑ₑ Q(i,e)·K(j,e)) / 32, the row maxima M(i) = max(−∞, supⱼ S(i,j)), the weights
  E(i,j) = exp(S(i,j) − M(i)), the row sums L(i) = 0 + ∑ⱼ E(i,j), and the result ∑ⱼ (E(i,j) / L(i)) · V(j,e).
  Each operation of the reference is read at one index; the layout operations (a transpose, the broadcasts of a
  scalar, of a column and along the columns) only re-arrange indices, and each such re-arrangement is identified
  with the index built from its coordinates.
-/
import proofs.«171237_j90855738180064_2_alg».proof.Proof.Gen.ReferenceIdeal.Read
import Idealize.ShloMosaic.Lib.ValueIdx
import Idealize.ShloMosaic.PureOps.Ideal.Laws
import proofs.«171237_j90855738180064_2_alg».proof.Proof.LibMaxReduce

noncomputable section

open scoped BigOperators

namespace Cert.RefSpec

open Cert.ReferenceIdeal Idealize.ShloMosaic Idealize.ShloMosaic.ValueIdx Idealize.ShloMosaic.TcCoe Idealize.SL.Sem

/-! ## The specification -/

/-- A row of `x` against a column of `w`: entry (i, e) of the product x·w. -/
def proj (x : FVec Ideal S4096x1024 .f32) (w : FVec Ideal S1024x1024 .f32) (i : Fin 4096) (e : Fin 1024) : EReal :=
  ∑ k : Fin 1024, x (ix2 i k) * w (ix2 k e)

/-- The scaled score of query row i against key row j; the divisor is the word of the float 32.0. -/
def logit (x : FVec Ideal S4096x1024 .f32) (wq wk : FVec Ideal S1024x1024 .f32) (i j : Fin 4096) : EReal :=
  Ideal.div (∑ e : Fin 1024, proj x wq i e * proj x wk j e) (Ideal.ofBits .f32 0x42000000#32)

/-- The maximum of row i of the scores: the entrywise maximum of −∞ with the supremum over the row (the form the
    maximum-reduction from −∞ followed by the maximum with a broadcast −∞ gives). -/
def rowMax (x : FVec Ideal S4096x1024 .f32) (wq wk : FVec Ideal S1024x1024 .f32) (i : Fin 4096) : EReal :=
  max ⊥ (⨆ j : Fin 4096, logit x wq wk i j)

/-- The sum over row i of the exponentials of the shifted scores, from the initial value 0. -/
def rowDen (x : FVec Ideal S4096x1024 .f32) (wq wk : FVec Ideal S1024x1024 .f32) (i : Fin 4096) : EReal :=
  0 + ∑ j : Fin 4096, Ideal.exp (logit x wq wk i j - rowMax x wq wk i)

/-- Entry (p, e) of the result: the normalised weights of row p against column e of the value projection. -/
def attnAt (x : FVec Ideal S4096x1024 .f32) (wq wk wv : FVec Ideal S1024x1024 .f32) (p : Fin 4096) (e : Fin 1024) : EReal :=
  ∑ j : Fin 4096, Ideal.div (Ideal.exp (logit x wq wk p j - rowMax x wq wk p)) (rowDen x wq wk p) * proj x wv j e

/-- The reference's result as an array. -/
def attn (x : FVec Ideal S4096x1024 .f32) (wq wk wv : FVec Ideal S1024x1024 .f32) : FVec Ideal S4096x1024 .f32 :=
  fun i => attnAt x wq wk wv (i 0) (i 1)

theorem attn_apply (x : FVec Ideal S4096x1024 .f32) (wq wk wv : FVec Ideal S1024x1024 .f32) (p : Fin 4096) (e : Fin 1024) :
    attn x wq wk wv (ix2 p e)
      = ∑ j : Fin 4096, Ideal.div (Ideal.exp (logit x wq wk p j - rowMax x wq wk p)) (rowDen x wq wk p) * proj x wv j e := rfl

/-- The maximum with −∞ changes nothing: the row maximum is the supremum over the row. -/
theorem rowMax_eq (x : FVec Ideal S4096x1024 .f32) (wq wk : FVec Ideal S1024x1024 .f32) (i : Fin 4096) :
    rowMax x wq wk i = ⨆ j : Fin 4096, logit x wq wk i j := by
  unfold rowMax
  exact max_eq_right bot_le

/-- The initial value 0 changes nothing: the row sum is the sum over the row. -/
theorem rowDen_eq (x : FVec Ideal S4096x1024 .f32) (wq wk : FVec Ideal S1024x1024 .f32) (i : Fin 4096) :
    rowDen x wq wk i = ∑ j : Fin 4096, Ideal.exp (logit x wq wk i j - rowMax x wq wk i) := by
  unfold rowDen
  exact zero_add _

/-- The word 0x42000000 is the float 32.0. -/
theorem ofBits_32 : Ideal.ofBits .f32 0x42000000#32 = ((32 : ℝ) : EReal) := by
  simp [Ideal.ofBits, Ideal.ieee, -EReal.coe_mul]; norm_num

/-! ## The reference's operations, one at a time, at an index given by its coordinates -/

section Stages

variable (x : FVec Ideal S4096x1024 .f32) (wq wk wv : FVec Ideal S1024x1024 .f32)

/-- The three projections: a product of x with a weight matrix, at (p, e). -/
theorem v0_at (p : Fin 4096) (e : Fin 1024) : Read.val_main_v0 (F := Ideal) x wq (ix2 p e) = proj x wq p e := by
  rw [Read.val_main_v0_apply]
  refine Finset.sum_congr rfl fun k _ => ?_
  have el : Read.lidx_main_v0 (ix2 p e) k = ix2 p k := funext fun a => Fin.ext (by match a with | ⟨0, _⟩ => rfl | ⟨1, _⟩ => rfl)
  have er : Read.ridx_main_v0 (ix2 p e) k = ix2 k e := funext fun a => Fin.ext (by match a with | ⟨0, _⟩ => rfl | ⟨1, _⟩ => rfl)
  rw [el, er]

theorem v1_at (p : Fin 4096) (e : Fin 1024) : Read.val_main_v1 (F := Ideal) x wk (ix2 p e) = proj x wk p e := by
  rw [Read.val_main_v1_apply]
  refine Finset.sum_congr rfl fun k _ => ?_
  have el : Read.lidx_main_v1 (ix2 p e) k = ix2 p k := funext fun a => Fin.ext (by match a with | ⟨0, _⟩ => rfl | ⟨1, _⟩ => rfl)
  have er : Read.ridx_main_v1 (ix2 p e) k = ix2 k e := funext fun a => Fin.ext (by match a with | ⟨0, _⟩ => rfl | ⟨1, _⟩ => rfl)
  rw [el, er]

theorem v2_at (p : Fin 4096) (e : Fin 1024) : Read.val_main_v2 (F := Ideal) x wv (ix2 p e) = proj x wv p e := by
  rw [Read.val_main_v2_apply]
  refine Finset.sum_congr rfl fun k _ => ?_
  have el : Read.lidx_main_v2 (ix2 p e) k = ix2 p k := funext fun a => Fin.ext (by match a with | ⟨0, _⟩ => rfl | ⟨1, _⟩ => rfl)
  have er : Read.ridx_main_v2 (ix2 p e) k = ix2 k e := funext fun a => Fin.ext (by match a with | ⟨0, _⟩ => rfl | ⟨1, _⟩ => rfl)
  rw [el, er]

/-- The transposed key projection at (e, j) is the key projection at (j, e). -/
theorem v3_at (e : Fin 1024) (j : Fin 4096) : Read.val_main_v3 (F := Ideal) x wk (ix2 e j) = proj x wk j e := by
  rw [Read.val_main_v3_apply]
  have ei : Read.idx_main_v3 (ix2 e j) = ix2 j e := funext fun a => Fin.ext (by match a with | ⟨0, _⟩ => rfl | ⟨1, _⟩ => rfl)
  rw [ei, v1_at]

/-- The unscaled score at (p, j). -/
theorem v4_at (p j : Fin 4096) :
    Read.val_main_v4 (F := Ideal) x wq wk (ix2 p j) = ∑ e : Fin 1024, proj x wq p e * proj x wk j e := by
  rw [Read.val_main_v4_apply]
  refine Finset.sum_congr rfl fun e _ => ?_
  have el : Read.lidx_main_v4 (ix2 p j) e = ix2 p e := funext fun a => Fin.ext (by match a with | ⟨0, _⟩ => rfl | ⟨1, _⟩ => rfl)
  have er : Read.ridx_main_v4 (ix2 p j) e = ix2 e j := funext fun a => Fin.ext (by match a with | ⟨0, _⟩ => rfl | ⟨1, _⟩ => rfl)
  rw [el, er, v0_at, v3_at]

/-- The scaled score at (p, j). -/
theorem v6_at (p j : Fin 4096) : Read.val_main_v6 (F := Ideal) x wq wk (ix2 p j) = logit x wq wk p j := by
  rw [Read.val_main_v6_apply, v4_at, Read.val_main_v5_apply, Read.val_main_cst_apply]
  rfl

/-- The array of scaled scores is the function (p, j) ↦ logit p j of the index's coordinates. -/
theorem v6_eq : Read.val_main_v6 (F := Ideal) x wq wk = fun i : S4096x4096.Idx => logit x wq wk (i 0) (i 1) := by
  funext i
  obtain ⟨p, j, rfl⟩ : ∃ (p : Fin 4096) (j : Fin 4096), i = ix2 p j := ⟨i 0, i 1, eq_ix2 i⟩
  exact v6_at x wq wk p j

/-- The shape fact of the one-axis reduction over the columns, in the form that names the index with the
    coordinate put back. -/
theorem reduces_cols : S4096x4096.Reduces [1] S4096 := by decide

/-- Putting column k back into the row index p gives (p, k). -/
theorem lift_cols (p k : Fin 4096) : reduces_cols.lift (ix1 p) k = ix2 p k :=
  funext fun a => Fin.ext (by match a with | ⟨0, _⟩ => rfl | ⟨1, _⟩ => rfl)

/-- The maximum-reduction over the columns from −∞, at row p, is the supremum of the row's scores. -/
theorem v7_at (p : Fin 4096) : Read.val_main_v7 (F := Ideal) x wq wk (ix1 p) = ⨆ j : Fin 4096, logit x wq wk p j := by
  unfold Read.val_main_v7 Read.val_main_cst_0
  refine (Cert.Lib.MaxReduce.hostMaxReduce_single (Read.val_main_v6 (F := Ideal) x wq wk) _ reduces_cols _ (ix1 p)).trans ?_
  show (⨆ k : Fin 4096, Read.val_main_v6 (F := Ideal) x wq wk (reduces_cols.lift (ix1 p) k)) = _
  refine iSup_congr fun k => ?_
  rw [lift_cols, v6_at]

/-- The maximum with the broadcast −∞, at row p: the row maximum. -/
theorem v9_at (p : Fin 4096) : Read.val_main_v9 (F := Ideal) x wq wk (ix1 p) = rowMax x wq wk p := by
  rw [Read.val_main_v9_apply, v7_at, Read.val_main_v8_apply, Read.val_main_cst_1_apply]
  show max (Ideal.ofBits .f32 0xFF800000#32) _ = _
  rw [Cert.Lib.MaxReduce.ofBits_neg_inf_f32]
  rfl

/-- The row maximum as a column, broadcast along the columns: at (p, j) it is the maximum of row p. -/
theorem v11_at (p j : Fin 4096) : Read.val_main_v11 (F := Ideal) x wq wk (ix2 p j) = rowMax x wq wk p := by
  rw [Read.val_main_v11_apply, Read.val_main_v10_apply]
  have ei : Read.idx_main_v10 (Read.idx_main_v11 (ix2 p j)) = ix1 p := funext fun a => Fin.ext (by match a with | ⟨0, _⟩ => rfl)
  rw [ei, v9_at]

/-- The exponential of the shifted score at (p, j). -/
theorem v13_at (p j : Fin 4096) :
    Read.val_main_v13 (F := Ideal) x wq wk (ix2 p j) = Ideal.exp (logit x wq wk p j - rowMax x wq wk p) := by
  rw [Read.val_main_v13_apply, Read.val_main_v12_apply, v6_at, v11_at]
  rfl

/-- The sum over the columns from the initial value 0, at row p: the row sum. -/
theorem v14_at (p : Fin 4096) : Read.val_main_v14 (F := Ideal) x wq wk (ix1 p) = rowDen x wq wk p := by
  rw [Read.val_main_v14_apply, Read.val_main_cst_2_apply]
  show Ideal.ofBits .f32 0x00000000#32 + _ = _
  rw [Ideal.ofBits_zero_f32]
  unfold rowDen
  refine congrArg (0 + ·) (Finset.sum_congr rfl fun k _ => ?_)
  have ei : Read.idx_main_v14 (ix1 p) k = ix2 p k := funext fun a => Fin.ext (by match a with | ⟨0, _⟩ => rfl | ⟨1, _⟩ => rfl)
  rw [ei, v13_at]

/-- The row sum as a column, broadcast along the columns: at (p, j) it is the sum of row p. -/
theorem v16_at (p j : Fin 4096) : Read.val_main_v16 (F := Ideal) x wq wk (ix2 p j) = rowDen x wq wk p := by
  rw [Read.val_main_v16_apply, Read.val_main_v15_apply]
  have ei : Read.idx_main_v15 (Read.idx_main_v16 (ix2 p j)) = ix1 p := funext fun a => Fin.ext (by match a with | ⟨0, _⟩ => rfl)
  rw [ei, v14_at]

/-- The normalised weight at (p, j). -/
theorem v17_at (p j : Fin 4096) :
    Read.val_main_v17 (F := Ideal) x wq wk (ix2 p j)
      = Ideal.div (Ideal.exp (logit x wq wk p j - rowMax x wq wk p)) (rowDen x wq wk p) := by
  rw [Read.val_main_v17_apply, v13_at, v16_at]
  rfl

/-- The result at (p, e): the weights of row p against column e of the value projection. -/
theorem v18_at (p : Fin 4096) (e : Fin 1024) :
    Read.val_main_v18 (F := Ideal) x wq wk wv (ix2 p e) = attnAt x wq wk wv p e := by
  rw [Read.val_main_v18_apply]
  unfold attnAt
  refine Finset.sum_congr rfl fun j _ => ?_
  have el : Read.lidx_main_v18 (ix2 p e) j = ix2 p j := funext fun a => Fin.ext (by match a with | ⟨0, _⟩ => rfl | ⟨1, _⟩ => rfl)
  have er : Read.ridx_main_v18 (ix2 p e) j = ix2 j e := funext fun a => Fin.ext (by match a with | ⟨0, _⟩ => rfl | ⟨1, _⟩ => rfl)
  rw [el, er, v17_at, v2_at]

end Stages

/-! ## The reference is the specification -/

/-- The reference's last operation, as a function of the four arguments, is `attn`. -/
theorem ref_eq_attn (x : FVec Ideal S4096x1024 .f32) (wq wk wv : FVec Ideal S1024x1024 .f32) :
    Read.val_main_v18 (F := Ideal) x wq wk wv = attn x wq wk wv := by
  funext i
  obtain ⟨p, e, rfl⟩ : ∃ (p : Fin 4096) (e : Fin 1024), i = ix2 p e := ⟨i 0, i 1, eq_ix2 i⟩
  exact v18_at x wq wk wv p e

/-- Every weakly fair execution of the reference terminates with its result array at `attn` of the four argument
    arrays, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = attn (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (by rw [Read.val_main_v18_eq, ref_eq_attn]), (h c).2⟩)
    (Cert.ReferenceIdeal.Value.run (F := Ideal) m ρ)

end Cert.RefSpec

end
-- ==== Proof.Bridge.lean ====
/-
  The closing algebra between a streaming softmax over one row and the reference's result at one entry.

  For one query row i and one output column d, let s j be the scaled score of row i against key row j and v j the
  value projection at (j, d), both real. The streaming recurrence ends with the weighted sum ∑ⱼ exp(s j − M)·v j and
  the denominator ∑ⱼ exp(s j − M), M the maximum of the row; normalising once at the end gives
  ∑ⱼ (exp(s j − M) / L)·v j, which is the reference's entry once the maximum over the first 4096 naturals is read as
  the supremum over the row and the sums over the first 4096 naturals as sums over the row.

  The scaling: multiplying each query projection by 1/32 before the score product gives the same score as dividing
  the score product by 32 after, because for real entries the products and the finite sum are those of ℝ, where
  (a·(1/32))·b summed over e is (∑ₑ a·b)·(1/32), and division by the real 32 is multiplication by 1/32.
-/
import proofs.«171237_j90855738180064_2_alg».proof.Proof.RefSpec
import proofs.«171237_j90855738180064_2_alg».proof.Proof.LibOnlineSoftmax
import proofs.«171237_j90855738180064_2_alg».proof.Proof.LibRealEntries
import Idealize.ShloMosaic.PureOps.Ideal.Laws
import Idealize.ShloMosaic.Lib.ValueIdx

noncomputable section

open scoped BigOperators

namespace Cert.Bridge

open Cert.ReferenceIdeal Idealize.ShloMosaic Idealize.ShloMosaic.ValueIdx Cert.RefSpec

/-! ## Real entries give real projections -/

/-- An entry of the product of two real-valued arrays is a real number: a finite sum of products of reals. -/
theorem proj_real {x : FVec Ideal S4096x1024 .f32} {w : FVec Ideal S1024x1024 .f32}
    (hx : RealEntries.IsReal x) (hw : RealEntries.IsReal w) (i : Fin 4096) (e : Fin 1024) :
    ∃ r : ℝ, Cert.RefSpec.proj x w i e = (r : EReal) := by
  unfold Cert.RefSpec.proj
  refine RealEntries.exists_real_sum _ _ fun k => ?_
  obtain ⟨a, ha⟩ := hx (ix2 i k)
  obtain ⟨b, hb⟩ := hw (ix2 k e)
  exact ⟨a * b, by rw [ha, hb, EReal.coe_mul]⟩

/-- The word 0x3D000000 is the float 1/32 (2⁻⁵, exactly). -/
theorem scale_word : (Scalar.ofBits (F := Ideal) .f32 0x3D000000#32 : EReal) = (((1 : ℝ) / 32 : ℝ) : EReal) := by
  show Ideal.ofBits .f32 0x3D000000#32 = _
  simp [Ideal.ofBits, Ideal.ieee, -EReal.coe_mul]; norm_num

/-- A real projection scaled by 1/32 is a real number. -/
theorem proj_scaled_real {x : FVec Ideal S4096x1024 .f32} {w : FVec Ideal S1024x1024 .f32}
    (hx : RealEntries.IsReal x) (hw : RealEntries.IsReal w) (i : Fin 4096) (e : Fin 1024) :
    ∃ r : ℝ, Cert.RefSpec.proj x w i e * Scalar.ofBits (F := Ideal) .f32 0x3D000000#32 = (r : EReal) := by
  obtain ⟨a, ha⟩ := proj_real hx hw i e
  exact ⟨a * (1 / 32), by rw [ha, scale_word, EReal.coe_mul]⟩

/-! ## Scaling the query before the score product, or the score after -/

/-- With the query projections scaled by 1/32 before the product, the real score product is the reference's
    scaled score (the product divided by 32). -/
theorem logit_of_scaled {x : FVec Ideal S4096x1024 .f32} {wq wk : FVec Ideal S1024x1024 .f32}
    (hx : RealEntries.IsReal x) (hq : RealEntries.IsReal wq) (hk : RealEntries.IsReal wk) (i j : Fin 4096)
    (qf kf : Fin 1024 → ℝ)
    (hqf : ∀ e : Fin 1024, ((qf e : ℝ) : EReal) = Cert.RefSpec.proj x wq i e * Scalar.ofBits (F := Ideal) .f32 0x3D000000#32)
    (hkf : ∀ e : Fin 1024, ((kf e : ℝ) : EReal) = Cert.RefSpec.proj x wk j e) :
    (((∑ e : Fin 1024, qf e * kf e : ℝ)) : EReal) = Cert.RefSpec.logit x wq wk i j := by
  choose a ha using fun e => proj_real hx hq i e
  -- the scaled query projection, in ℝ
  have hq' : ∀ e, qf e = a e * (1 / 32) := fun e => by
    have h := hqf e
    rw [ha e, scale_word, ← EReal.coe_mul] at h
    exact EReal.coe_eq_coe_iff.1 h
  unfold Cert.RefSpec.logit
  have hsum : (∑ e : Fin 1024, Cert.RefSpec.proj x wq i e * Cert.RefSpec.proj x wk j e)
      = ((∑ e : Fin 1024, a e * kf e : ℝ) : EReal) := by
    rw [LibOnlineSoftmax.coe_finset_sum]
    refine Finset.sum_congr rfl fun e _ => ?_
    rw [ha e, ← hkf e, EReal.coe_mul]
  rw [hsum, Cert.RefSpec.ofBits_32, Ideal.div_coe (by norm_num : (32 : ℝ) ≠ 0), ← EReal.coe_mul]
  refine EReal.coe_eq_coe_iff.2 ?_
  rw [Finset.sum_mul]
  refine Finset.sum_congr rfl fun e _ => ?_
  rw [hq' e]; ring

/-! ## The streaming softmax's normalised result is the reference's entry -/

section Stream

variable (x : FVec Ideal S4096x1024 .f32) (wq wk wv : FVec Ideal S1024x1024 .f32)

/-- The running maximum over the whole row is the reference's row maximum. -/
theorem runMax_eq_rowMax (i : Fin 4096) (s : ℕ → ℝ)
    (hs : ∀ j : Fin 4096, ((s j.val : ℝ) : EReal) = Cert.RefSpec.logit x wq wk i j) :
    LibOnlineSoftmax.runMax s 4096 = Cert.RefSpec.rowMax x wq wk i := by
  rw [Cert.RefSpec.rowMax_eq]
  unfold LibOnlineSoftmax.runMax
  rw [← LibOnlineSoftmax.iSup_fin_eq_sup_range 4096 (fun j => ((s j : ℝ) : EReal))]
  exact iSup_congr fun j => hs j

/-- The running denominator over the whole row is the reference's row sum. -/
theorem runDen_eq_rowDen (i : Fin 4096) (s : ℕ → ℝ)
    (hs : ∀ j : Fin 4096, ((s j.val : ℝ) : EReal) = Cert.RefSpec.logit x wq wk i j) :
    LibOnlineSoftmax.runDen s 4096 = Cert.RefSpec.rowDen x wq wk i := by
  rw [Cert.RefSpec.rowDen_eq]
  unfold LibOnlineSoftmax.runDen
  rw [Finset.sum_range]
  refine Finset.sum_congr rfl fun j _ => ?_
  rw [hs j, runMax_eq_rowMax x wq wk i s hs]

/-- Normalising the streamed weighted sum once at the end gives the reference's entry (i, d). -/
theorem attn_of_stream (i : Fin 4096) (d : Fin 1024) (s v : ℕ → ℝ)
    (hs : ∀ j : Fin 4096, ((s j.val : ℝ) : EReal) = Cert.RefSpec.logit x wq wk i j)
    (hv : ∀ j : Fin 4096, ((v j.val : ℝ) : EReal) = Cert.RefSpec.proj x wv j d) :
    Ideal.div (LibOnlineSoftmax.runNum s v 4096) (LibOnlineSoftmax.runDen s 4096)
      = Cert.RefSpec.attn x wq wk wv (ValueIdx.ix2 i d) := by
  rw [LibOnlineSoftmax.softmax_final s v (by norm_num : 0 < 4096), Cert.RefSpec.attn_apply, Finset.sum_range]
  refine Finset.sum_congr rfl fun j _ => ?_
  rw [hs j, hv j, runMax_eq_rowMax x wq wk i s hs, runDen_eq_rowDen x wq wk i s hs]

end Stream

end Cert.Bridge

end
-- ==== Proof.Finite.lean ====
/-
  The precondition decoded: where the "all inputs finite" predicate is all ones, every entry of each of the four
  argument arrays is a real number.

  The predicate is the conjunction (by `and` on one-bit words) of four tests, one per array, each the reduction by
  `and` over both axes of the entrywise comparison |x| < +∞.  A conjunction that is 1 has every conjunct 1; a
  reduction by `and` that is 1 met only 1s; and an extended real whose absolute value is below +∞ is a real number.
-/
import proofs.«171237_j90855738180064_2_alg».proof.Defs
import proofs.«171237_j90855738180064_2_alg».proof.Proof.Gen.Pre_finite_inputs
import proofs.«171237_j90855738180064_2_alg».proof.Proof.LibRealEntries
import Idealize.ShloMosaic.Lib.ReduceAll
import Idealize.ShloMosaic.Lib.ValueIdx

noncomputable section

namespace Cert.Finite

open Idealize.ShloMosaic Idealize.SL.Sem

/-- The scalar shape has exactly one index. -/
instance : Subsingleton Cert.Pre_finite_inputs.S_.Idx := ⟨fun a b => funext fun d => d.elim0⟩

/-- The predicate as a function of four arrays: all ones only if all four arrays are real-valued. -/
theorem reals_of_fn [Cert.Pre_finite_inputs.Facts]
    (x : FVec Ideal Cert.Pre_finite_inputs.S4096x1024 .f32)
    (a b c : FVec Ideal Cert.Pre_finite_inputs.S1024x1024 .f32)
    (h : Cert.Pre_finite_inputs.fn (F := Ideal) x a b c = (fun _ => 1#1)) :
    RealEntries.IsReal x ∧ RealEntries.IsReal a ∧ RealEntries.IsReal b ∧ RealEntries.IsReal c := by
  have h0 := congrFun h ValueIdx.ix0
  dsimp only [Cert.Pre_finite_inputs.fn, Cert.Pre_finite_inputs.fn_part1] at h0
  -- the outer conjunction: ((t₀ ∧ t₁) ∧ t₂) ∧ t₃
  obtain ⟨h012, h3⟩ := IntOp.andi_eq_one.1 h0
  obtain ⟨h01, h2⟩ := IntOp.andi_eq_one.1 h012
  obtain ⟨hx, ha⟩ := IntOp.andi_eq_one.1 h01
  exact ⟨RealEntries.isReal_of_all_lt_inf x _ (fun _ => rfl) _ _ _ _ hx,
         RealEntries.isReal_of_all_lt_inf a _ (fun _ => rfl) _ _ _ _ ha,
         RealEntries.isReal_of_all_lt_inf b _ (fun _ => rfl) _ _ _ _ h2,
         RealEntries.isReal_of_all_lt_inf c _ (fun _ => rfl) _ _ _ _ h3⟩

/-- Under the kernel's precondition the four argument arrays of every device are real-valued. -/
theorem reals_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    RealEntries.IsReal (m ((c.tc : Thread Cert.KernelIdeal.nD Cert.KernelIdeal.τ).loc Cert.KernelIdeal.main_arg0))
    ∧ RealEntries.IsReal (m ((c.tc : Thread Cert.KernelIdeal.nD Cert.KernelIdeal.τ).loc Cert.KernelIdeal.main_arg1))
    ∧ RealEntries.IsReal (m ((c.tc : Thread Cert.KernelIdeal.nD Cert.KernelIdeal.τ).loc Cert.KernelIdeal.main_arg2))
    ∧ RealEntries.IsReal (m ((c.tc : Thread Cert.KernelIdeal.nD Cert.KernelIdeal.τ).loc Cert.KernelIdeal.main_arg3)) :=
  reals_of_fn _ _ _ _ (h c)

end Cert.Finite

end
-- ==== Proof.KI.KernelValue.lean ====
/-
  The result array of the idealized kernel is the attention of its arguments, under the precondition.

  The chain: the result array is what the attention kernel's write-backs leave, which is, row by row, the normalised
  streaming state after the last key tile; that kernel reads three arrays the projection kernel wrote, which are, entry by
  entry, (x·Wq)·(1/32), x·Wk and x·Wv of the arguments (the host conversion of the value weights is the identity at the
  extended reals); the precondition makes every entry of the arguments, hence of the three projections, a real number, so the
  streaming state is the running maximum / denominator / numerator of the row's real scores; and normalising those after all
  4096 keys is the row of the reference's softmax-weighted sum.
-/
import proofs.«171237_j90855738180064_2_alg».proof.Proof.KI.Run
import proofs.«171237_j90855738180064_2_alg».proof.Proof.KI.ProjArrays
import proofs.«171237_j90855738180064_2_alg».proof.Proof.KI.FlashArray
import proofs.«171237_j90855738180064_2_alg».proof.Proof.KI.FlashValue
import proofs.«171237_j90855738180064_2_alg».proof.Proof.Bridge
import proofs.«171237_j90855738180064_2_alg».proof.Proof.Finite
import Idealize.ShloMosaic.Lib.StableHlo.Run
import Idealize.ShloMosaic.Lib.ValueIdx

set_option maxRecDepth 16384

noncomputable section

open scoped BigOperators

namespace Cert.KernelIdeal.KernelValue

open Idealize.ShloMosaic Idealize.ShloMosaic.TcCoe Idealize.ShloMosaic.ValueIdx Idealize.ShloMosaic.StableHlo RealEntries
open Idealize.SL Idealize.SL.Sem
open Cert.KernelIdeal Cert.KernelIdeal.Gen Cert.KernelIdeal.Flash

variable (m : (ℓ : Loc nD τ sig) → Buf (Elt Ideal) ℓ)

/-! ## The contents at the two kernels' entries -/

/-- The host conversion writes only its own result: the arguments reach the projection kernel as launched. -/
theorem V1_arg0 (c : Dev nD) : V1 m c main_arg0 = m ((c : Thread nD τ).loc main_arg0) := W1_of_ne m c main_arg0 (by decide)
theorem V1_arg1 (c : Dev nD) : V1 m c main_arg1 = m ((c : Thread nD τ).loc main_arg1) := W1_of_ne m c main_arg1 (by decide)
theorem V1_arg2 (c : Dev nD) : V1 m c main_arg2 = m ((c : Thread nD τ).loc main_arg2) := W1_of_ne m c main_arg2 (by decide)
/-- Its result is the value weights, narrowed. -/
theorem V1_v0 (c : Dev nD) : V1 m c main_v0 = (truncf .bf16 (m ((c : Thread nD τ).loc main_arg3)) bitsLt_bf16_f32 : FVec Ideal S1024x1024 .bf16) := by
  show StableHlo.after hostOps0 (fun b => m (c, b)) (Proc.devRef .tc main_v0) = _
  after_results
/-- The attention kernel finds the projection kernel's three output arrays at what its write-backs left. -/
theorem V2_q (c : Dev nD) : V2 m c main_v1_0 = (dat0 (V1 m) c).arrAt 4 cfg0.N := W2_arr m c 4
theorem V2_k (c : Dev nD) : V2 m c main_v1_1 = (dat0 (V1 m) c).arrAt 5 cfg0.N := W2_arr m c 5
theorem V2_v (c : Dev nD) : V2 m c main_v1_2 = (dat0 (V1 m) c).arrAt 6 cfg0.N := W2_arr m c 6

/-! ## The three arrays, entry by entry, as the reference's projections -/

theorem q_entry (c : Dev nD) (hx : IsReal (m ((c : Thread nD τ).loc main_arg0))) (hw : IsReal (m ((c : Thread nD τ).loc main_arg1)))
    (i : Fin 4096) (e : Fin 1024) :
    V2 m c main_v1_0 (ix2 i e)
      = Cert.RefSpec.proj (m ((c : Thread nD τ).loc main_arg0)) (m ((c : Thread nD τ).loc main_arg1)) i e * Scalar.ofBits (F := Ideal) .f32 0x3D000000#32 := by
  rw [V2_q, ProjArrays.arrQ (V1 m) c (by rw [V1_arg0]; exact hx) (by rw [V1_arg1]; exact hw)]
  rw [V1_arg0, V1_arg1]
  rfl

theorem k_entry (c : Dev nD) (hx : IsReal (m ((c : Thread nD τ).loc main_arg0))) (hw : IsReal (m ((c : Thread nD τ).loc main_arg2)))
    (j : Fin 4096) (e : Fin 1024) :
    V2 m c main_v1_1 (ix2 j e) = Cert.RefSpec.proj (m ((c : Thread nD τ).loc main_arg0)) (m ((c : Thread nD τ).loc main_arg2)) j e := by
  rw [V2_k, ProjArrays.arrK (V1 m) c (by rw [V1_arg0]; exact hx) (by rw [V1_arg2]; exact hw)]
  rw [V1_arg0, V1_arg2]
  rfl

theorem v_entry (c : Dev nD) (j : Fin 4096) (d : Fin 1024) :
    V2 m c main_v1_2 (ix2 j d) = Cert.RefSpec.proj (m ((c : Thread nD τ).loc main_arg0)) (m ((c : Thread nD τ).loc main_arg3)) j d := by
  rw [V2_v, ProjArrays.arrV (V1 m) c]
  rw [V1_arg0, V1_v0]
  rfl

/-! ## The result -/

/-- A function on Fin 4096 x Fin 1024 continued by zero to all pairs of naturals. -/
def ext (f : Fin 4096 → Fin 1024 → ℝ) : ℕ → ℕ → ℝ :=
  fun i e => if h : i < 4096 ∧ e < 1024 then f ⟨i, h.1⟩ ⟨e, h.2⟩ else 0
theorem ext_apply (f : Fin 4096 → Fin 1024 → ℝ) (i : Fin 4096) (e : Fin 1024) : ext f i.val e.val = f i e := by
  unfold ext; rw [dif_pos ⟨i.isLt, e.isLt⟩]

/-- The result array is the attention of the argument arrays. -/
theorem result_eq [Cert.Pre_finite_inputs.Facts] (hpre : Cert.Pre_KernelIdeal m) (c : Dev nD) :
    (dat1 (V2 m) c).arrAt 3 cfg1.N
      = Cert.RefSpec.attn (m ((c : Thread nD τ).loc main_arg0)) (m ((c : Thread nD τ).loc main_arg1))
          (m ((c : Thread nD τ).loc main_arg2)) (m ((c : Thread nD τ).loc main_arg3)) := by
  obtain ⟨hx, hwq, hwk, hwv⟩ := Cert.Finite.reals_of_pre m hpre c
  choose qf hqf using fun (i : Fin 4096) (e : Fin 1024) => Cert.Bridge.proj_scaled_real hx hwq i e
  choose kf hkf using fun (i : Fin 4096) (e : Fin 1024) => Cert.Bridge.proj_real hx hwk i e
  choose vf hvf using fun (i : Fin 4096) (e : Fin 1024) => Cert.Bridge.proj_real hx hwv i e
  have hqN : ∀ (i : Fin 4096) (e : Fin 1024), V2 m c main_v1_0 (ix2 i e) = ((ext qf i e : ℝ) : EReal) := fun i e => by
    rw [q_entry m c hx hwq i e, ext_apply]; exact hqf i e
  have hkN : ∀ (j : Fin 4096) (e : Fin 1024), V2 m c main_v1_1 (ix2 j e) = ((ext kf j e : ℝ) : EReal) := fun j e => by
    rw [k_entry m c hx hwk j e, ext_apply]; exact hkf j e
  have hvN : ∀ (j : Fin 4096) (d : Fin 1024), V2 m c main_v1_2 (ix2 j d) = ((ext vf j d : ℝ) : EReal) := fun j d => by
    rw [v_entry m c j d, ext_apply]; exact hvf j d
  rw [arrAt3_eq (V2 m) c (dat1 (V2 m) c) (after1_3 (V2 m) c)]
  funext i
  have hi : i = ix2 (⟨(i 0).val, (i 0).isLt⟩ : Fin 4096) (⟨(i 1).val, (i 1).isLt⟩ : Fin 1024) := by
    funext a; match a with | ⟨0, _⟩ => rfl | ⟨1, _⟩ => rfl
  rw [hi]
  generalize (⟨(i 0).val, (i 0).isLt⟩ : Fin 4096) = r
  generalize (⟨(i 1).val, (i 1).isLt⟩ : Fin 1024) = d
  have ht : 8 * (r.val / 1024) + 7 < cfg1.N := by
    show _ < grid1.N
    rw [N_1]; have := r.isLt; omega
  have h1 := FlashValue.flash_out (V2 m) (ext qf) (ext kf) (ext vf) c hqN hkN hvN ⟨8 * (r.val / 1024) + 7, ht⟩
    (by show (8 * (r.val / 1024) + 7) % 8 = 7; omega) ⟨r.val % 1024, Nat.mod_lt _ (by decide)⟩ d
  have hrow : 1024 * ((8 * (r.val / 1024) + 7) / 8) + r.val % 1024 = r.val := by omega
  simp only [Fin.val_mk] at h1
  rw [hrow] at h1
  refine (show attnArr (V2 m) c (ix2 r d) = _ from h1).trans ?_
  refine Cert.Bridge.attn_of_stream _ _ _ _ r d (FlashValue.logit (ext qf) (ext kf) r.val) (fun j => ext vf j d.val) ?_ ?_
  · intro j
    have e1 : FlashValue.logit (ext qf) (ext kf) r.val j.val = ∑ e : Fin 1024, qf r e * kf j e := by
      unfold FlashValue.logit
      rw [← Fin.sum_univ_eq_sum_range (fun e => ext qf r.val e * ext kf j.val e) 1024]
      exact Finset.sum_congr rfl fun e _ => by rw [ext_apply, ext_apply]
    rw [e1]
    exact Cert.Bridge.logit_of_scaled hx hwq hwk r j (qf r) (kf j) (fun e => (hqf r e).symm) (fun e => (hkf j e).symm)
  · intro j
    show ((ext vf j.val d.val : ℝ) : EReal) = _
    rw [ext_apply]; exact (hvf j d).symm

end Cert.KernelIdeal.KernelValue

end
-- ==== Proof.lean ====
/-
  Dense self-attention: a tiled kernel against its textbook statement.

  The kernel runs two pallas_calls.  The first projects the rows of x, 256 at a time, against the three weight matrices —
  the query and key projections with every operand split into a leading part and a residual and three of the four cross
  products kept, the query projection also scaled by 1/32; the value projection as one product.  The second walks the
  4096 x 4096 score matrix in 1024 x 512 tiles: for each block of query rows it carries, per row, the running maximum of
  the scores, the running sum of exponentials relative to it, and the running weighted sum of value rows, rescaling the two
  sums whenever the maximum moves, and divides once after the last tile.  The reference computes (x·Wq)(x·Wk)ᵀ / 32, a row
  softmax, and the product with x·Wv.

  At the extended reals, under the precondition that every input is finite: a format change is the identity, so each
  residual is t − t = 0 and the correction products vanish; 1/32 as a factor of the query projection is the division of the
  score by 32; the streaming maximum / denominator / numerator after all eight key tiles are the row's maximum, softmax
  denominator and unnormalised weighted sum, and normalising once at the end equals summing the normalised weights.  Each
  of these laws needs the entries to be real numbers (⊤ − ⊤ ≠ 0; the extended reals are not distributive at infinity),
  which is exactly what the precondition gives.

  The three frames: both kernel programs are run through their three items (a host conversion and the two kernels) with
  every unscoped buffer's contents named between items; the reference's frame is its generated run with the result dropped.
-/
import proofs.«171237_j90855738180064_2_alg».proof.Defs
import proofs.«171237_j90855738180064_2_alg».proof.Proof.Gen.Kernel
import proofs.«171237_j90855738180064_2_alg».proof.Proof.Gen.KernelIdeal
import proofs.«171237_j90855738180064_2_alg».proof.Proof.Gen.ReferenceIdeal
import proofs.«171237_j90855738180064_2_alg».proof.Proof.Gen.Pre_finite_inputs
import proofs.«171237_j90855738180064_2_alg».proof.Proof.K.Run
import proofs.«171237_j90855738180064_2_alg».proof.Proof.KI.Run
import proofs.«171237_j90855738180064_2_alg».proof.Proof.KI.KernelValue
import proofs.«171237_j90855738180064_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : @Cert.frame_Kernel Cert.Kernel.Gen.facts Cert.Pre_finite_inputs.Gen.facts :=
  fun m ρ _ => Cert.Kernel.Flash.frame m ρ

/-- So does the idealized kernel. -/
theorem frame_ki : @Cert.frame_KernelIdeal Cert.KernelIdeal.Gen.facts Cert.Pre_finite_inputs.Gen.facts :=
  fun m ρ _ => Cert.KernelIdeal.Flash.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealization replaced five round trips through bf16 by the identity; each is the rule's statement at its shape. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16⟩

/-- From memories that agree on the arguments both programs end with the attention of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.RefSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.KernelValue.result_eq m hpre c), (h c).2⟩)
      (Cert.KernelIdeal.Flash.run_value m ρ)
  · refine (θ_run Cert.ReferenceIdeal.defs _ _).mono (fun _ h c => ⟨(h c).1.trans ?_, (h c).2⟩) (Cert.RefSpec.ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
